-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024x64 : Shape := ⟨2, ![1024, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x1024 .f32) (main_arg1 : FVec F S1024x1024 .f32) (main_arg2 : FVec F S1024x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024x64 : Shape := ⟨2, ![1024, 64]⟩
abbrev S512x1024 : Shape := ⟨2, ![512, 1024]⟩
abbrev S512x64 : Shape := ⟨2, ![512, 64]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x64, .f32⟩
  | .hbm, ⟨3, _⟩ => ⟨S1024x1024, .bf16⟩
  | .hbm, ⟨4, _⟩ => ⟨S1024x64, .bf16⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x64, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v14 : BitVec 1 := Scalar.cmpi .eq arg0 c31_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S512x1024_S512x1024 : S512x1024.ShapeCasts S512x1024
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  dot_S512x64_S1024x64_S512x1024_1_1_0_0_n_n_wf : DotDims.WF S512x64 S1024x64 S512x1024 [1] [1] [0] [0] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S16384x1024.size a
  hwx1_1 : ∀ i : grid1.Coords, EltTy.bits .f32 = 32 ∨ (Rect.block (s := S16384x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x1024 : Shape := ⟨2, ![16384, 1024]⟩
abbrev S1024x1024 : Shape := ⟨2, ![1024, 1024]⟩
abbrev S1024x64 : Shape := ⟨2, ![1024, 64]⟩
abbrev S16384x64 : Shape := ⟨2, ![16384, 64]⟩
abbrev S_ : Shape := ⟨0, ![]⟩
abbrev S64x1024 : Shape := ⟨2, ![64, 1024]⟩
abbrev S1024x16384 : Shape := ⟨2, ![1024, 16384]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x64, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S64x1024, .f32⟩
  | .hbm, ⟨13, _⟩ => ⟨S16384x1024, .f32⟩
  | .hbm, ⟨14, _⟩ => ⟨S1024x16384, .f32⟩
  | .hbm, ⟨15, _⟩ => ⟨S16384x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S_S16384x64 : S_.BroadcastsInDim S16384x64 (![] : Fin 0 → Fin S16384x64.rank)
  transposes_S1024x64_S64x1024_1_0 : S1024x64.Transposes [1, 0] S64x1024
  transposes_S16384x1024_S1024x16384_1_0 : S16384x1024.Transposes [1, 0] S1024x16384
  bcast_S_S1024x1024 : S_.BroadcastsInDim S1024x1024 (![] : Fin 0 → Fin S1024x1024.rank)
  dot_S16384x1024_S1024x1024_S16384x1024_1_0_0_1_n_n_wf : DotDims.WF S16384x1024 S1024x1024 S16384x1024 [1] [0] [0] [1] [] []
  dot_S16384x1024_S1024x64_S16384x64_1_0_0_1_n_n_wf : DotDims.WF S16384x1024 S1024x64 S16384x64 [1] [0] [0] [1] [] []
  dot_S16384x64_S64x1024_S16384x1024_1_0_0_1_n_n_wf : DotDims.WF S16384x64 S64x1024 S16384x1024 [1] [0] [0] [1] [] []
  dot_S1024x16384_S16384x1024_S1024x1024_1_0_0_1_n_n_wf : DotDims.WF S1024x16384 S16384x1024 S1024x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def dot_S1024x16384_S16384x1024_S1024x1024_1_0_0_1_n_n : DotDims S1024x16384 S16384x1024 S1024x1024 where
  lhsContracting := [1]
  rhsContracting := [0]
  lhsNonContracting := [0]
  rhsNonContracting := [1]
  lhsBatch := []
  rhsBatch := []
  wf := dot_S1024x16384_S16384x1024_S1024x1024_1_0_0_1_n_n_wf

class Facts : Prop extends Facts₀ where

variable [Facts]
-- ==== Proof.K.R0.lean ====
/-
  The first kernel region's half of the frame, at any float instance.

  The region runs one kernel body over a grid of 32 points. At point `t` the body is handed six staging buffers:
  three it only reads — the tile of 512 samples (rows `512 t … 512 t + 511` of the sample array), the whole
  analysis matrix and the whole group indicator — and three it only fills, each with ONE store of the whole
  buffer: the latent variables of the tile, their reconstruction, and their gradient term. Each stored value is
  a closed function (`k0_pay2`, `k0_pay3`, `k0_pay4`) of the three buffers read, so what the body leaves in
  an output buffer is that function of the input blocks at the point, whatever the buffer held before.

  Stated once, at the buffer contents `V` the region finds on entry:
  * `iblk0`: a window's block at a point, read off its array;
  * an input's buffer holds its block at every point, fetched there or not (the matrix and the indicator are
    fetched at the first point only and their block never moves);
  * `kernel_triple`: the body's triple on whole staging buffers;
  * `dat0`: the proof data — after the body each input's buffer at its block, each output's at its payload of
    the input blocks —, and `body_obligation0`: the body meets it at every point.
-/
import proofs.«105448_j18073222382222_1_alg».proof.Proof.Gen.Kernel.Launch
import proofs.«105448_j18073222382222_1_alg».proof.Proof.Gen.Kernel.Skeleton
import proofs.«105448_j18073222382222_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter this half of the frame is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input's buffer

An input whose block the body leaves in place holds that block at every point: where the pipeline fetched it, by
the fetch; where it did not, the block index has not moved since the last fetch, and the buffer still holds the
block of the point before, which is this point's. This covers the sample tile (fetched at every point) and the
matrix and the indicator (fetched once, their index constant) alike. Stated for ANY proof data with `V`'s
array and the block left in place. -/

theorem before_tile_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before_matrix_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before_indicator_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: whole buffers

Every load and every store of the body goes through the rectangle that is the whole buffer: offsets zero, extents
the buffer's. A load through it reads the buffer's contents; one store through it leaves the stored value. -/

/-- The zero offsets, as the constant function. -/
theorem zero_offsets : (![0, 0] : Fin 2 → Nat) = fun _ => 0 := by
  funext a; fin_cases a <;> rfl

/-- The whole tile-shaped buffer, the whole matrix, the whole indicator, as rectangles. -/
abbrev wholeTile : Rect S512x1024 := Rect.unit (s := S512x1024) ![0, 0] S512x1024.size inb_S512x1024_S512x1024_0_0
abbrev wholeMatrix : Rect S1024x1024 := Rect.unit (s := S1024x1024) ![0, 0] S1024x1024.size inb_S1024x1024_S1024x1024_0_0
abbrev wholeIndicator : Rect S1024x64 := Rect.unit (s := S1024x64) ![0, 0] S1024x64.size inb_S1024x64_S1024x64_0_0

/-- A load of the whole buffer reads its contents. -/
theorem readAt_wholeTile {sp : Space} (v : View sig .tc sp S512x1024 .f32) (f : v.ty.Contents (Elt F)) :
    View.readAt (Elt F) v wholeTile.toLoadRect f = View.read (Elt F) v f :=
  View.ld_unit_zero (S := S512x1024) zero_offsets inb_S512x1024_S512x1024_0_0 (View.read (Elt F) v f)

theorem readAt_wholeMatrix {sp : Space} (v : View sig .tc sp S1024x1024 .bf16) (f : v.ty.Contents (Elt F)) :
    View.readAt (Elt F) v wholeMatrix.toLoadRect f = View.read (Elt F) v f :=
  View.ld_unit_zero (S := S1024x1024) zero_offsets inb_S1024x1024_S1024x1024_0_0 (View.read (Elt F) v f)

theorem readAt_wholeIndicator {sp : Space} (v : View sig .tc sp S1024x64 .bf16) (f : v.ty.Contents (Elt F)) :
    View.readAt (Elt F) v wholeIndicator.toLoadRect f = View.read (Elt F) v f :=
  View.ld_unit_zero (S := S1024x64) zero_offsets inb_S1024x64_S1024x64_0_0 (View.read (Elt F) v f)

/-- One store of the whole tile-shaped buffer, over anything, leaves the stored value. -/
theorem read_store_wholeTile {sp : Space} (v : View sig .tc sp S512x1024 .f32) (f : v.ty.Contents (Elt F))
    (p : Vec F S512x1024 .f32) :
    View.read (Elt F) v (v.writes (Elt F) f [⟨wholeTile, p⟩]) = p :=
  (View.read_writes_eq_canon v f [⟨wholeTile, p⟩] (fun y =>
      ⟨_, List.mem_singleton_self _, View.mem_set_unit_zero (S := S512x1024) zero_offsets inb_S512x1024_S512x1024_0_0 y⟩)).trans
    (View.canon_unit_zero (S := S512x1024) zero_offsets inb_S512x1024_S512x1024_0_0 p)

/-! ## The body's triple -/

set_option maxHeartbeats 1000000 in
/-- The body on whole staging buffers — the three inputs' reading `x0`, `x1`, `x2`, the three outputs' holding
    anything — runs to the continuation with the inputs' as they were and the outputs' at the latent variables,
    the reconstruction and the gradient term of `x0`, `x1`, `x2`. The grid coordinate is not read. -/
theorem kernel_triple (c : Dev nD) (E : Set ℕ) (i : grid0.Coords)
    (a1 : Memref sig .tc .vmem S512x1024 .f32) (h1 : a1.IsWhole)
    (a2 : Memref sig .tc .vmem S1024x1024 .bf16) (h2 : a2.IsWhole)
    (a3 : Memref sig .tc .vmem S1024x64 .bf16) (h3 : a3.IsWhole)
    (a4 : Memref sig .tc .vmem S512x1024 .f32) (h4 : a4.IsWhole)
    (a5 : Memref sig .tc .vmem S512x1024 .f32) (h5 : a5.IsWhole)
    (a6 : Memref sig .tc .vmem S512x1024 .f32) (h6 : a6.IsWhole)
    (x0 : Vec F S512x1024 .f32) (x1 : Vec F S1024x1024 .bf16) (x2 : Vec F S1024x64 .bf16)
    (K : PUnit → sProp 𝕄) :
    iprop(owns (c : Thread nD τ) a1 fullShare x0 ∗ owns (c : Thread nD τ) a2 fullShare x1
        ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x0 ∗ owns (c : Thread nD τ) a2 fullShare x1
              ∗ owns (c : Thread nD τ) a3 fullShare x2
              ∗ owns (c : Thread nD τ) a4 fullShare (k0_pay2 x0 x1)
              ∗ owns (c : Thread nD τ) a5 fullShare (k0_pay3 x0 x1)
              ∗ owns (c : Thread nD τ) a6 fullShare (k0_pay4 x0 x1 x2)) -∗ K ⟨⟩))
      ⊢ wp frame (wpE (defs₀ (F := F)) Variants.none c none) E
          (cc0__kernel1 i a1 h1 a2 h2 a3 h3 a4 h4 a5 h5 a6 h6) K := by
  simp only [cc0__kernel1_eq_skeleton]; unfold cc0__kernel1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [readAt_wholeTile, readAt_wholeMatrix]
    exact read_store_wholeTile _ _ _
  isplitl [H5]
  · iexists _; isplitr
    swap; · iexact H5
    ipureintro
    rw [readAt_wholeTile, readAt_wholeMatrix]
    exact read_store_wholeTile _ _ _
  iexists _; isplitr
  swap; · iexact H6
  ipureintro
  rw [readAt_wholeTile, readAt_wholeMatrix, readAt_wholeIndicator]
  exact read_store_wholeTile _ _ _

/-! ## The pipeline's proof data -/

/-- The proof data of the region on core `c`: the arrays as the region finds them; after the body at point `t`
    each input's buffer at its block, and the three outputs' at the latent variables, the reconstruction and the
    gradient term of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t)
    | ⟨4, _⟩ => k0_pay3 (iblk0 V c 0 t) (iblk0 V c 1 t)
    | ⟨5, _⟩ => k0_pay4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) := by dsimp only [dat0]
theorem after0_4 (c : Dev nD) (t : Fin cfg0.N) : (dat0 V c).after 4 t = k0_pay3 (iblk0 V c 0 t) (iblk0 V c 1 t) := by dsimp only [dat0]
theorem after0_5 (c : Dev nD) (t : Fin cfg0.N) : (dat0 V c).after 5 t = k0_pay4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before_tile_of V (dat0 V c) (A_eq0 V c 0) (after0_0 V c) t d
theorem before0_1 (c : Dev nD) (t : Fin cfg0.N) (d) : (dat0 V c).before 1 t d = iblk0 V c 1 t :=
  before_matrix_of V (dat0 V c) (A_eq0 V c 1) (after0_1 V c) t d
theorem before0_2 (c : Dev nD) (t : Fin cfg0.N) (d) : (dat0 V c).before 2 t d = iblk0 V c 2 t :=
  before_indicator_of V (dat0 V c) (A_eq0 V c 2) (after0_2 V c) t d

/-! ## The body obligation, at a generic point -/

/-- What the body is called with at point `t`: the invariant, what is owed, and the six current staging buffers, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what is owed pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernel_triple c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.Kernel.R0

end
-- ==== Proof.K.R1.lean ====
/-
  The second kernel region (the accumulation over the 32 tiles of 512 samples) as one half of the frame: what its
  body does at a point, what its windows' staging buffers and its carried scratch hold after each point, and the
  pipeline library's body obligation for that proof data. Everything is stated at a PARAMETER `V`, the contents of
  the core's buffers when the region is entered, and for any float instance.

  The body at a point: at the first point it zeroes the scratch; at every point it adds, into the scratch, the product
  of the transposed tile of samples with the tile of gradient terms; at the last point it stores the scratch times a
  constant into the output's staging buffer. So the scratch after point `n` is the fold `acc` of the tiles `0 … n`,
  and the output window, written back at the last point only, receives the scaled fold of all of them.
-/
import proofs.«105448_j18073222382222_1_alg».proof.Proof.Gen.Kernel.Launch
import proofs.«105448_j18073222382222_1_alg».proof.Proof.Gen.Kernel.Skeleton
import proofs.«105448_j18073222382222_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The condition of the body's first branch: the point is the first. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- The condition of its second branch: the point is the last. -/
abbrev isLast (i : grid1.Coords) : Prop := k1_cond2 i = 1#1
theorem isLast_iff : ∀ t : Fin cfg1.N, isLast (grid1.coords t) ↔ t.val = 31 :=
  (by decide +kernel : ∀ t : Fin grid1.N, isLast (grid1.coords t) ↔ t.val = 31)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from the last point the output window is idle and is not written back; -/
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
/-- at the last point it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM : Memref sig .tc .vmem S1024x1024 .f32 := Memref.whole cc1_scratch0

/-- The whole-buffer rectangles of the two shapes the body accesses. -/
abbrev rT : Rect S512x1024 := Rect.unit (s := S512x1024) ![0, 0] S512x1024.size inb_S512x1024_S512x1024_0_0
abbrev rA : Rect S1024x1024 := Rect.unit (s := S1024x1024) ![0, 0] S1024x1024.size inb_S1024x1024_S1024x1024_0_0

theorem hz2 : (![0, 0] : Fin 2 → Nat) = fun _ => 0 := by
  funext a; match a with | ⟨0, _⟩ => rfl | ⟨1, _⟩ => rfl

/-! ## The body's triple, case by case -/

/-- A whole-rectangle piece covers every index. -/
theorem cover_one {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 1000000 in
/-- At a point that is neither the first nor the last: the scratch, holding `s`, ends holding `s` plus the tiles'
    product (`k1_pay2`); the input tiles and the idle output buffer are handed back as they were. -/
theorem run_mid (c : Dev nD) (E : Set ℕ) (i : grid1.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x1024 .f32) (harg4 : arg4.IsWhole)
    (hf : ¬isFirst i) (hl : ¬isLast i)
    (x0 x1 : Vec F S512x1024 .f32) (xo s : Vec F S1024x1024 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 s)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hf | exact hl)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  rw [View.read_writes_eq_canon _ _ _ (cover_one hz2 _ _ _), View.canon_unit_zero hz2]
  simp only [View.readAt_eq_ld, View.ld_unit_zero (S := S512x1024) hz2, View.ld_unit_zero (S := S1024x1024) hz2]

set_option maxHeartbeats 1000000 in
set_option pp.maxSteps 8000 in
set_option pp.deepTerms false in
/-- At the first point: the scratch, holding anything, is zeroed and then ends holding the first tiles' product. -/
theorem run_first (c : Dev nD) (E : Set ℕ) (i : grid1.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x1024 .f32) (harg4 : arg4.IsWhole)
    (hf : isFirst i) (hl : ¬isLast i)
    (x0 x1 : Vec F S512x1024 .f32) (xo : Vec F S1024x1024 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 k1_pay1)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hf | exact hl)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  sl_unfold_run_names
  rw [View.read_writes_eq_canon _ _ _ (cover_one hz2 _ _ _), View.canon_cons_unit_zero hz2,
    View.readCov_unit_zero (S := S1024x1024) _ hz2]
  simp only [View.readAt_eq_ld, View.ld_unit_zero (S := S512x1024) hz2]

set_option maxHeartbeats 1000000 in
set_option pp.maxSteps 8000 in
set_option pp.deepTerms false in
/-- At the last point: the scratch ends at `s` plus the tiles' product, and the output's staging buffer, holding
    anything, ends holding that sum scaled (`k1_pay3`). -/
theorem run_last (c : Dev nD) (E : Set ℕ) (i : grid1.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x1024 .f32) (harg4 : arg4.IsWhole)
    (hf : ¬isFirst i) (hl : isLast i)
    (x0 x1 : Vec F S512x1024 .f32) (s : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k1_pay3 (k1_pay2 x0 x1 s))
            ∗ owns (c : Thread nD τ) arg4 fullShare (k1_pay2 x0 x1 s)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hf | exact hl)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [View.read_writes_eq_canon _ _ _ (cover_one hz2 _ _ _), View.canon_unit_zero hz2,
      View.readCov_unit_zero (S := S1024x1024) _ hz2]
    simp only [View.readAt_eq_ld, View.ld_unit_zero (S := S512x1024) hz2, View.ld_unit_zero (S := S1024x1024) hz2]
  iexists _; isplitr
  swap; · iexact H3
  ipureintro
  sl_unfold_run_names
  rw [View.read_writes_eq_canon _ _ _ (cover_one hz2 _ _ _), View.canon_unit_zero hz2]
  simp only [View.readAt_eq_ld, View.ld_unit_zero (S := S512x1024) hz2, View.ld_unit_zero (S := S1024x1024) hz2]

/-! ## The fold: what the scratch holds after each point -/

/-- The scratch after point `n`: the first tiles' product added to zero, then one product more per later point. -/
def acc (c : Dev nD) : (n : ℕ) → n < cfg1.N → Vec F S1024x1024 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩) (acc c n (Nat.lt_of_succ_lt h))

theorem acc_first (c : Dev nD) (t : Fin cfg1.N) (h : t.val = 0) :
    acc V c t.val t.isLt = k1_pay2 (iblk1 V c 0 t) (iblk1 V c 1 t) k1_pay1 := by
  obtain ⟨n, hn⟩ := t
  cases n with
  | zero => rfl
  | succ n => exact absurd h (Nat.succ_ne_zero n)

theorem acc_later (c : Dev nD) (t : Fin cfg1.N) (h : t.val ≠ 0) :
    acc V c t.val t.isLt = k1_pay2 (iblk1 V c 0 t) (iblk1 V c 1 t) (acc V c (t.val - 1) (Nat.lt_of_le_of_lt (Nat.sub_le _ _) t.isLt)) := by
  obtain ⟨n, hn⟩ := t
  cases n with
  | zero => exact absurd rfl h
  | succ n => rfl

/-! ## The region invariant: the other region's staging buffers, the scratch at the fold, the generator register -/

/-- The ten scoped buffers this region never touches (the first region's staging buffers), each whole at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The class's invariant (every scoped buffer that is no staging buffer of this region at some contents, the
    generator register at some state) gives the untouched ten, the scratch at some contents, the register; -/
theorem PhiA_elim (c : Dev nD) :
    (Pipeline.ΦA spec1 c : sProp 𝕄) ⊢ iprop(others (F := F) c ∗ (∃ d, owns (c : Thread nD τ) scM fullShare d) ∗ (∃ r, prngReg c r)) := by
  unfold Pipeline.ΦA others; rw [scopedRest1_eq]
  simp only [scM, owns_whole]
  iintro ⟨⟨A0, A1, A2, A3, A4, A5, A6, A7, A8, A9, HS⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [HS]; · iexact HS
  iexact Hg

/-- and is made of them. -/
theorem PhiA_intro (c : Dev nD) :
    iprop(others (F := F) c ∗ (∃ d, owns (c : Thread nD τ) scM fullShare d) ∗ (∃ r, prngReg c r)) ⊢ (Pipeline.ΦA spec1 c : sProp 𝕄) := by
  unfold Pipeline.ΦA others; rw [scopedRest1_eq]
  simp only [scM, owns_whole]
  iintro ⟨⟨A0, A1, A2, A3, A4, A5, A6, A7, A8, A9⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-- The invariant before position `n`: before the first point the class's; afterwards the untouched ten, the scratch
    at what the point before left (the fold), the generator register at some state. -/
def PhiS (c : Dev nD) : (n : ℕ) → n ≤ cfg1.N → sProp 𝕄
  | 0, _ => Pipeline.ΦA spec1 c
  | n + 1, hn => iprop(others (F := F) c ∗ owns (c : Thread nD τ) scM fullShare (acc V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (acc V c n hn) ∗ (∃ r, prngReg c r)) := rfl

theorem PhiS_pos (c : Dev nD) (n : ℕ) (h : n ≤ cfg1.N) (hz : n ≠ 0) :
    PhiS V c n h = iprop(others (F := F) c ∗ owns (c : Thread nD τ) scM fullShare (acc V c (n - 1) (by omega)) ∗ (∃ r, prngReg c r)) := by
  cases n with
  | zero => exact absurd rfl hz
  | succ n => rfl

/-! ## The proof data -/

/-- The arrays as the region finds them; after the body at point `t` each input's buffer at its block and the
    output's at the scaled fold (consulted at the last point only: elsewhere the window is idle and not written
    back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is decided by its position (first, last, or
    neither); the invariant hands the body the scratch at the fold so far (at anything before the first point) and
    takes it back at the fold one tile longer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 32 := lt_of_lt_of_eq t.isLt (show cfg1.N = 32 from N_1)
  by_cases hlast : t.val = 31
  · -- the last point
    have hl : isLast (grid1.coords t) := (isLast_iff t).mpr hlast
    have hf : ¬isFirst (grid1.coords t) := fun h => by have := (isFirst_iff t).mp h; omega
    have hz : t.val ≠ 0 := by omega
    rw [show (dat1 V c).leavesExact 2 t = owns (c : Thread nD τ) (ms1_2 t) fullShare ((dat1 V c).after 2 t) from by
      unfold Dat.leavesExact; rw [live1_2 t hl], after1_2]
    rw [acc_later V c t hz, Phi_castSucc V c t, PhiS_pos V c _ _ hz]
    iintro ⟨⟨HO, HS, Hg⟩, Ho, ⟨%d0, H0⟩, ⟨%d1, H1⟩, ⟨%d2, H2⟩⟩
    iapply (run_last c Set.univ (grid1.coords t) _ _ _ _ _ _ _ _ hf hl (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HO HS Hg]
    · isplitl [HO]; · iexact HO
      isplitl [HS]; · iexact HS
      iexact Hg
    isplitl [Ho]; · iexact Ho
    isplitl [H0]; · iexact H0
    isplitl [H1]; · iexact H1
    iexact H2
  · have hl : ¬isLast (grid1.coords t) := fun h => hlast ((isLast_iff t).mp h)
    rw [Dat.leavesExact_idle (dat1 V c) 2 t (idle1_2 t hl) (noFlush1_2 t hl)]
    by_cases hz : t.val = 0
    · -- the first point
      have hf : isFirst (grid1.coords t) := (isFirst_iff t).mpr hz
      rw [acc_first V c t hz, Phi_castSucc V c t, PhiS_zero V c _ _ hz]
      iintro ⟨HΦ, Ho, ⟨%d0, H0⟩, ⟨%d1, H1⟩, ⟨%d2, H2⟩⟩
      ihave HΦ' := (PhiA_elim (F := F) c) $$ HΦ
      icases HΦ' with ⟨HO, HS, Hg⟩
      iapply (run_first c Set.univ (grid1.coords t) _ _ _ _ _ _ _ _ hf hl (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HO HS Hg]
      · isplitl [HO]; · iexact HO
        isplitl [HS]; · iexact HS
        iexact Hg
      isplitl [Ho]; · iexact Ho
      isplitl [H0]; · iexact H0
      isplitl [H1]; · iexact H1
      iexists _; iexact H2
    · -- a point in between
      have hf : ¬isFirst (grid1.coords t) := fun h => hz ((isFirst_iff t).mp h)
      rw [acc_later V c t hz, Phi_castSucc V c t, PhiS_pos V c _ _ hz]
      iintro ⟨⟨HO, HS, Hg⟩, Ho, ⟨%d0, H0⟩, ⟨%d1, H1⟩, ⟨%d2, H2⟩⟩
      iapply (run_mid c Set.univ (grid1.coords t) _ _ _ _ _ _ _ _ hf hl (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HO HS Hg]
      · isplitl [HO]; · iexact HO
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class's back: what the scratch holds is forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine .trans ?_ (PhiA_intro (F := F) c)
  iintro ⟨HO, HS, Hg⟩
  isplitl [HO]; · iexact HO
  isplitl [HS]; · iexists _; iexact HS
  iexact Hg

end Cert.Kernel.R1

end
-- ==== Proof.K.Run.lean ====
/-
  The whole program's run: a stretch of two host conversions, the first kernel region, the second kernel region, as
  three segments of the pipeline library's several-regions launch. The contents of the core's buffers at each
  boundary are a fold from the launch memory: the host stretch's results, then each region's arrays at what its
  write-backs leave. Every execution terminates, and the final memory holds, at every unscoped buffer, the last
  boundary's contents; read at the results and at the arguments, for any float instance.
-/
import proofs.«105448_j18073222382222_1_alg».proof.Proof.K.R0
import proofs.«105448_j18073222382222_1_alg».proof.Proof.K.R1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two host conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region, likewise. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the fold holds at the arguments, and at the first region's entry -/

/-- The host stretch writes only its two results. -/
theorem W1_of_ne (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem W1_main_arg0 (c : Dev nD) : W1 m ρ c (Proc.devRef .tc main_arg0) = m ((c : Thread nD τ).loc main_arg0) :=
  (W1_of_ne m ρ c main_arg0 (by decide) (by decide)).trans rfl
theorem W1_main_arg1 (c : Dev nD) : W1 m ρ c (Proc.devRef .tc main_arg1) = m ((c : Thread nD τ).loc main_arg1) :=
  (W1_of_ne m ρ c main_arg1 (by decide) (by decide)).trans rfl
theorem W1_main_arg2 (c : Dev nD) : W1 m ρ c (Proc.devRef .tc main_arg2) = m ((c : Thread nD τ).loc main_arg2) :=
  (W1_of_ne m ρ c main_arg2 (by decide) (by decide)).trans rfl

/-- The first region's first input is the first argument, unchanged by the region; -/
theorem W2_main_arg0 (c : Dev nD) : W2 m ρ c (Proc.devRef .tc main_arg0) = m ((c : Thread nD τ).loc main_arg0) :=
  (W2_arr m ρ c 0).trans (((R0.dat0 (V1 m ρ) c).arrAt_in 0 rfl _).trans ((R0.A_eq0 (V1 m ρ) c 0).trans (W1_main_arg0 m ρ c)))
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)

/-- and so through the second region. -/
theorem W3_main_arg0 (c : Dev nD) : W3 m ρ c (Proc.devRef .tc main_arg0) = m ((c : Thread nD τ).loc main_arg0) :=
  (W3_arr m ρ c 0).trans (((R1.dat1 (V2 m ρ) c).arrAt_in 0 rfl _).trans ((R1.A_eq1 (V2 m ρ) c 0).trans (W2_main_arg0 m ρ c)))
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)

/-- The results: the first region's first two outputs are no array of the second region. -/
theorem W3_main_v2_0 (c : Dev nD) : W3 m ρ c (Proc.devRef .tc main_v2_0) = (R0.dat0 (V1 m ρ) c).arrAt 3 cfg0.N :=
  (W3_of_ne m ρ c main_v2_0 (by decide)).trans (W2_arr m ρ c 3)
theorem W3_main_v2_1 (c : Dev nD) : W3 m ρ c (Proc.devRef .tc main_v2_1) = (R0.dat0 (V1 m ρ) c).arrAt 4 cfg0.N :=
  (W3_of_ne m ρ c main_v2_1 (by decide)).trans (W2_arr m ρ c 4)
theorem W3_main_v3 (c : Dev nD) : W3 m ρ c (Proc.devRef .tc main_v3) = (R1.dat1 (V2 m ρ) c).arrAt 2 cfg1.N :=
  W3_arr m ρ c 2
/-- The second region's second input is the first region's third output. -/
theorem V2_main_v2_2 (c : Dev nD) : V2 m ρ c main_v2_2 = (R0.dat0 (V1 m ρ) c).arrAt 5 cfg0.N := W2_arr m ρ c 5
theorem V2_main_arg0 (c : Dev nD) : V2 m ρ c main_arg0 = m ((c : Thread nD τ).loc main_arg0) := W2_main_arg0 m ρ c
theorem V1_main_arg0 (c : Dev nD) : V1 m ρ c main_arg0 = m ((c : Thread nD τ).loc main_arg0) := W1_main_arg0 m ρ c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; its invariant carries the scratch. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from R1.hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from R1.hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- Every weakly fair execution terminates, and the final memory holds, at every unscoped buffer of every core, the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the three results and the three arguments: the results at what the two regions' write-backs
    leave, the arguments as launched. -/
theorem run_read : θ_run defs (onTc (τ := τ) (main (F := F))) ⟨m, fun _ => 0, ρ⟩ (fun r => ∀ c : Dev nD,
      r.2.mem ((c.tc : Thread nD τ).loc main_v2_0) = (R0.dat0 (V1 m ρ) c).arrAt 3 cfg0.N
      ∧ r.2.mem ((c.tc : Thread nD τ).loc main_v2_1) = (R0.dat0 (V1 m ρ) c).arrAt 4 cfg0.N
      ∧ r.2.mem ((c.tc : Thread nD τ).loc main_v3) = (R1.dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2_0 (by decide))).trans (W3_main_v2_0 m ρ c),
     (h c _ (mem_uc main_v2_1 (by decide))).trans (W3_main_v2_1 m ρ c),
     (h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩)
    (run_all m ρ)

/-- The frame: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).2.2.2.1, (h c).2.2.2.2.1, (h c).2.2.2.2.2⟩) (run_read m ρ)

end Cert.Kernel.Run

end
-- ==== Proof.KI.R0.lean ====
/-
  The first kernel region's half of the frame, at any float instance.

  The region runs one kernel body over a grid of 32 points. At point `t` the body is handed six staging buffers:
  three it only reads — the tile of 512 samples (rows `512 t … 512 t + 511` of the sample array), the whole
  analysis matrix and the whole group indicator — and three it only fills, each with ONE store of the whole
  buffer: the latent variables of the tile, their reconstruction, and their gradient term. Each stored value is
  a closed function (`k0_pay2`, `k0_pay3`, `k0_pay4`) of the three buffers read, so what the body leaves in
  an output buffer is that function of the input blocks at the point, whatever the buffer held before.

  Stated once, at the buffer contents `V` the region finds on entry:
  * `iblk0`: a window's block at a point, read off its array;
  * an input's buffer holds its block at every point, fetched there or not (the matrix and the indicator are
    fetched at the first point only and their block never moves);
  * `kernel_triple`: the body's triple on whole staging buffers;
  * `dat0`: the proof data — after the body each input's buffer at its block, each output's at its payload of
    the input blocks —, and `body_obligation0`: the body meets it at every point.
-/
import proofs.«105448_j18073222382222_1_alg».proof.Proof.Gen.KernelIdeal.Launch
import proofs.«105448_j18073222382222_1_alg».proof.Proof.Gen.KernelIdeal.Skeleton
import proofs.«105448_j18073222382222_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter this half of the frame is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input's buffer

An input whose block the body leaves in place holds that block at every point: where the pipeline fetched it, by
the fetch; where it did not, the block index has not moved since the last fetch, and the buffer still holds the
block of the point before, which is this point's. This covers the sample tile (fetched at every point) and the
matrix and the indicator (fetched once, their index constant) alike. Stated for ANY proof data with `V`'s
array and the block left in place. -/

theorem before_tile_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before_matrix_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before_indicator_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: whole buffers

Every load and every store of the body goes through the rectangle that is the whole buffer: offsets zero, extents
the buffer's. A load through it reads the buffer's contents; one store through it leaves the stored value. -/

/-- The zero offsets, as the constant function. -/
theorem zero_offsets : (![0, 0] : Fin 2 → Nat) = fun _ => 0 := by
  funext a; fin_cases a <;> rfl

/-- The whole tile-shaped buffer, the whole matrix, the whole indicator, as rectangles. -/
abbrev wholeTile : Rect S512x1024 := Rect.unit (s := S512x1024) ![0, 0] S512x1024.size inb_S512x1024_S512x1024_0_0
abbrev wholeMatrix : Rect S1024x1024 := Rect.unit (s := S1024x1024) ![0, 0] S1024x1024.size inb_S1024x1024_S1024x1024_0_0
abbrev wholeIndicator : Rect S1024x64 := Rect.unit (s := S1024x64) ![0, 0] S1024x64.size inb_S1024x64_S1024x64_0_0

/-- A load of the whole buffer reads its contents. -/
theorem readAt_wholeTile {sp : Space} (v : View sig .tc sp S512x1024 .f32) (f : v.ty.Contents (Elt F)) :
    View.readAt (Elt F) v wholeTile.toLoadRect f = View.read (Elt F) v f :=
  View.ld_unit_zero (S := S512x1024) zero_offsets inb_S512x1024_S512x1024_0_0 (View.read (Elt F) v f)

theorem readAt_wholeMatrix {sp : Space} (v : View sig .tc sp S1024x1024 .bf16) (f : v.ty.Contents (Elt F)) :
    View.readAt (Elt F) v wholeMatrix.toLoadRect f = View.read (Elt F) v f :=
  View.ld_unit_zero (S := S1024x1024) zero_offsets inb_S1024x1024_S1024x1024_0_0 (View.read (Elt F) v f)

theorem readAt_wholeIndicator {sp : Space} (v : View sig .tc sp S1024x64 .bf16) (f : v.ty.Contents (Elt F)) :
    View.readAt (Elt F) v wholeIndicator.toLoadRect f = View.read (Elt F) v f :=
  View.ld_unit_zero (S := S1024x64) zero_offsets inb_S1024x64_S1024x64_0_0 (View.read (Elt F) v f)

/-- One store of the whole tile-shaped buffer, over anything, leaves the stored value. -/
theorem read_store_wholeTile {sp : Space} (v : View sig .tc sp S512x1024 .f32) (f : v.ty.Contents (Elt F))
    (p : Vec F S512x1024 .f32) :
    View.read (Elt F) v (v.writes (Elt F) f [⟨wholeTile, p⟩]) = p :=
  (View.read_writes_eq_canon v f [⟨wholeTile, p⟩] (fun y =>
      ⟨_, List.mem_singleton_self _, View.mem_set_unit_zero (S := S512x1024) zero_offsets inb_S512x1024_S512x1024_0_0 y⟩)).trans
    (View.canon_unit_zero (S := S512x1024) zero_offsets inb_S512x1024_S512x1024_0_0 p)

/-! ## The body's triple -/

set_option maxHeartbeats 1000000 in
/-- The body on whole staging buffers — the three inputs' reading `x0`, `x1`, `x2`, the three outputs' holding
    anything — runs to the continuation with the inputs' as they were and the outputs' at the latent variables,
    the reconstruction and the gradient term of `x0`, `x1`, `x2`. The grid coordinate is not read. -/
theorem kernel_triple (c : Dev nD) (E : Set ℕ) (i : grid0.Coords)
    (a1 : Memref sig .tc .vmem S512x1024 .f32) (h1 : a1.IsWhole)
    (a2 : Memref sig .tc .vmem S1024x1024 .bf16) (h2 : a2.IsWhole)
    (a3 : Memref sig .tc .vmem S1024x64 .bf16) (h3 : a3.IsWhole)
    (a4 : Memref sig .tc .vmem S512x1024 .f32) (h4 : a4.IsWhole)
    (a5 : Memref sig .tc .vmem S512x1024 .f32) (h5 : a5.IsWhole)
    (a6 : Memref sig .tc .vmem S512x1024 .f32) (h6 : a6.IsWhole)
    (x0 : Vec F S512x1024 .f32) (x1 : Vec F S1024x1024 .bf16) (x2 : Vec F S1024x64 .bf16)
    (K : PUnit → sProp 𝕄) :
    iprop(owns (c : Thread nD τ) a1 fullShare x0 ∗ owns (c : Thread nD τ) a2 fullShare x1
        ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x0 ∗ owns (c : Thread nD τ) a2 fullShare x1
              ∗ owns (c : Thread nD τ) a3 fullShare x2
              ∗ owns (c : Thread nD τ) a4 fullShare (k0_pay2 x0 x1)
              ∗ owns (c : Thread nD τ) a5 fullShare (k0_pay3 x0 x1)
              ∗ owns (c : Thread nD τ) a6 fullShare (k0_pay4 x0 x1 x2)) -∗ K ⟨⟩))
      ⊢ wp frame (wpE (defs₀ (F := F)) Variants.none c none) E
          (cc0__kernel1 i a1 h1 a2 h2 a3 h3 a4 h4 a5 h5 a6 h6) K := by
  simp only [cc0__kernel1_eq_skeleton]; unfold cc0__kernel1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [readAt_wholeTile, readAt_wholeMatrix]
    exact read_store_wholeTile _ _ _
  isplitl [H5]
  · iexists _; isplitr
    swap; · iexact H5
    ipureintro
    rw [readAt_wholeTile, readAt_wholeMatrix]
    exact read_store_wholeTile _ _ _
  iexists _; isplitr
  swap; · iexact H6
  ipureintro
  rw [readAt_wholeTile, readAt_wholeMatrix, readAt_wholeIndicator]
  exact read_store_wholeTile _ _ _

/-! ## The pipeline's proof data -/

/-- The proof data of the region on core `c`: the arrays as the region finds them; after the body at point `t`
    each input's buffer at its block, and the three outputs' at the latent variables, the reconstruction and the
    gradient term of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t)
    | ⟨4, _⟩ => k0_pay3 (iblk0 V c 0 t) (iblk0 V c 1 t)
    | ⟨5, _⟩ => k0_pay4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) := by dsimp only [dat0]
theorem after0_4 (c : Dev nD) (t : Fin cfg0.N) : (dat0 V c).after 4 t = k0_pay3 (iblk0 V c 0 t) (iblk0 V c 1 t) := by dsimp only [dat0]
theorem after0_5 (c : Dev nD) (t : Fin cfg0.N) : (dat0 V c).after 5 t = k0_pay4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before_tile_of V (dat0 V c) (A_eq0 V c 0) (after0_0 V c) t d
theorem before0_1 (c : Dev nD) (t : Fin cfg0.N) (d) : (dat0 V c).before 1 t d = iblk0 V c 1 t :=
  before_matrix_of V (dat0 V c) (A_eq0 V c 1) (after0_1 V c) t d
theorem before0_2 (c : Dev nD) (t : Fin cfg0.N) (d) : (dat0 V c).before 2 t d = iblk0 V c 2 t :=
  before_indicator_of V (dat0 V c) (A_eq0 V c 2) (after0_2 V c) t d

/-! ## The body obligation, at a generic point -/

/-- What the body is called with at point `t`: the invariant, what is owed, and the six current staging buffers, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what is owed pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernel_triple c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.KernelIdeal.R0

end
-- ==== Proof.KI.R1.lean ====
/-
  The second kernel region (the accumulation over the 32 tiles of 512 samples) as one half of the frame: what its
  body does at a point, what its windows' staging buffers and its carried scratch hold after each point, and the
  pipeline library's body obligation for that proof data. Everything is stated at a PARAMETER `V`, the contents of
  the core's buffers when the region is entered, and for any float instance.

  The body at a point: at the first point it zeroes the scratch; at every point it adds, into the scratch, the product
  of the transposed tile of samples with the tile of gradient terms; at the last point it stores the scratch times a
  constant into the output's staging buffer. So the scratch after point `n` is the fold `acc` of the tiles `0 … n`,
  and the output window, written back at the last point only, receives the scaled fold of all of them.
-/
import proofs.«105448_j18073222382222_1_alg».proof.Proof.Gen.KernelIdeal.Launch
import proofs.«105448_j18073222382222_1_alg».proof.Proof.Gen.KernelIdeal.Skeleton
import proofs.«105448_j18073222382222_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The condition of the body's first branch: the point is the first. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- The condition of its second branch: the point is the last. -/
abbrev isLast (i : grid1.Coords) : Prop := k1_cond2 i = 1#1
theorem isLast_iff : ∀ t : Fin cfg1.N, isLast (grid1.coords t) ↔ t.val = 31 :=
  (by decide +kernel : ∀ t : Fin grid1.N, isLast (grid1.coords t) ↔ t.val = 31)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from the last point the output window is idle and is not written back; -/
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
/-- at the last point it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM : Memref sig .tc .vmem S1024x1024 .f32 := Memref.whole cc1_scratch0

/-- The whole-buffer rectangles of the two shapes the body accesses. -/
abbrev rT : Rect S512x1024 := Rect.unit (s := S512x1024) ![0, 0] S512x1024.size inb_S512x1024_S512x1024_0_0
abbrev rA : Rect S1024x1024 := Rect.unit (s := S1024x1024) ![0, 0] S1024x1024.size inb_S1024x1024_S1024x1024_0_0

theorem hz2 : (![0, 0] : Fin 2 → Nat) = fun _ => 0 := by
  funext a; match a with | ⟨0, _⟩ => rfl | ⟨1, _⟩ => rfl

/-! ## The body's triple, case by case -/

/-- A whole-rectangle piece covers every index. -/
theorem cover_one {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 1000000 in
/-- At a point that is neither the first nor the last: the scratch, holding `s`, ends holding `s` plus the tiles'
    product (`k1_pay2`); the input tiles and the idle output buffer are handed back as they were. -/
theorem run_mid (c : Dev nD) (E : Set ℕ) (i : grid1.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x1024 .f32) (harg4 : arg4.IsWhole)
    (hf : ¬isFirst i) (hl : ¬isLast i)
    (x0 x1 : Vec F S512x1024 .f32) (xo s : Vec F S1024x1024 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 s)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hf | exact hl)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  rw [View.read_writes_eq_canon _ _ _ (cover_one hz2 _ _ _), View.canon_unit_zero hz2]
  simp only [View.readAt_eq_ld, View.ld_unit_zero (S := S512x1024) hz2, View.ld_unit_zero (S := S1024x1024) hz2]

set_option maxHeartbeats 1000000 in
set_option pp.maxSteps 8000 in
set_option pp.deepTerms false in
/-- At the first point: the scratch, holding anything, is zeroed and then ends holding the first tiles' product. -/
theorem run_first (c : Dev nD) (E : Set ℕ) (i : grid1.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x1024 .f32) (harg4 : arg4.IsWhole)
    (hf : isFirst i) (hl : ¬isLast i)
    (x0 x1 : Vec F S512x1024 .f32) (xo : Vec F S1024x1024 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 k1_pay1)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hf | exact hl)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  sl_unfold_run_names
  rw [View.read_writes_eq_canon _ _ _ (cover_one hz2 _ _ _), View.canon_cons_unit_zero hz2,
    View.readCov_unit_zero (S := S1024x1024) _ hz2]
  simp only [View.readAt_eq_ld, View.ld_unit_zero (S := S512x1024) hz2]

set_option maxHeartbeats 1000000 in
set_option pp.maxSteps 8000 in
set_option pp.deepTerms false in
/-- At the last point: the scratch ends at `s` plus the tiles' product, and the output's staging buffer, holding
    anything, ends holding that sum scaled (`k1_pay3`). -/
theorem run_last (c : Dev nD) (E : Set ℕ) (i : grid1.Coords)
    (arg1 : Memref sig .tc .vmem S512x1024 .f32) (harg1 : arg1.IsWhole) (arg2 : Memref sig .tc .vmem S512x1024 .f32) (harg2 : arg2.IsWhole)
    (arg3 : Memref sig .tc .vmem S1024x1024 .f32) (harg3 : arg3.IsWhole) (arg4 : Memref sig .tc .vmem S1024x1024 .f32) (harg4 : arg4.IsWhole)
    (hf : ¬isFirst i) (hl : isLast i)
    (x0 x1 : Vec F S512x1024 .f32) (s : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k1_pay3 (k1_pay2 x0 x1 s))
            ∗ owns (c : Thread nD τ) arg4 fullShare (k1_pay2 x0 x1 s)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hf | exact hl)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [View.read_writes_eq_canon _ _ _ (cover_one hz2 _ _ _), View.canon_unit_zero hz2,
      View.readCov_unit_zero (S := S1024x1024) _ hz2]
    simp only [View.readAt_eq_ld, View.ld_unit_zero (S := S512x1024) hz2, View.ld_unit_zero (S := S1024x1024) hz2]
  iexists _; isplitr
  swap; · iexact H3
  ipureintro
  sl_unfold_run_names
  rw [View.read_writes_eq_canon _ _ _ (cover_one hz2 _ _ _), View.canon_unit_zero hz2]
  simp only [View.readAt_eq_ld, View.ld_unit_zero (S := S512x1024) hz2, View.ld_unit_zero (S := S1024x1024) hz2]

/-! ## The fold: what the scratch holds after each point -/

/-- The scratch after point `n`: the first tiles' product added to zero, then one product more per later point. -/
def acc (c : Dev nD) : (n : ℕ) → n < cfg1.N → Vec F S1024x1024 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩) (acc c n (Nat.lt_of_succ_lt h))

theorem acc_first (c : Dev nD) (t : Fin cfg1.N) (h : t.val = 0) :
    acc V c t.val t.isLt = k1_pay2 (iblk1 V c 0 t) (iblk1 V c 1 t) k1_pay1 := by
  obtain ⟨n, hn⟩ := t
  cases n with
  | zero => rfl
  | succ n => exact absurd h (Nat.succ_ne_zero n)

theorem acc_later (c : Dev nD) (t : Fin cfg1.N) (h : t.val ≠ 0) :
    acc V c t.val t.isLt = k1_pay2 (iblk1 V c 0 t) (iblk1 V c 1 t) (acc V c (t.val - 1) (Nat.lt_of_le_of_lt (Nat.sub_le _ _) t.isLt)) := by
  obtain ⟨n, hn⟩ := t
  cases n with
  | zero => exact absurd rfl h
  | succ n => rfl

/-! ## The region invariant: the other region's staging buffers, the scratch at the fold, the generator register -/

/-- The ten scoped buffers this region never touches (the first region's staging buffers), each whole at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The class's invariant (every scoped buffer that is no staging buffer of this region at some contents, the
    generator register at some state) gives the untouched ten, the scratch at some contents, the register; -/
theorem PhiA_elim (c : Dev nD) :
    (Pipeline.ΦA spec1 c : sProp 𝕄) ⊢ iprop(others (F := F) c ∗ (∃ d, owns (c : Thread nD τ) scM fullShare d) ∗ (∃ r, prngReg c r)) := by
  unfold Pipeline.ΦA others; rw [scopedRest1_eq]
  simp only [scM, owns_whole]
  iintro ⟨⟨A0, A1, A2, A3, A4, A5, A6, A7, A8, A9, HS⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [HS]; · iexact HS
  iexact Hg

/-- and is made of them. -/
theorem PhiA_intro (c : Dev nD) :
    iprop(others (F := F) c ∗ (∃ d, owns (c : Thread nD τ) scM fullShare d) ∗ (∃ r, prngReg c r)) ⊢ (Pipeline.ΦA spec1 c : sProp 𝕄) := by
  unfold Pipeline.ΦA others; rw [scopedRest1_eq]
  simp only [scM, owns_whole]
  iintro ⟨⟨A0, A1, A2, A3, A4, A5, A6, A7, A8, A9⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-- The invariant before position `n`: before the first point the class's; afterwards the untouched ten, the scratch
    at what the point before left (the fold), the generator register at some state. -/
def PhiS (c : Dev nD) : (n : ℕ) → n ≤ cfg1.N → sProp 𝕄
  | 0, _ => Pipeline.ΦA spec1 c
  | n + 1, hn => iprop(others (F := F) c ∗ owns (c : Thread nD τ) scM fullShare (acc V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (acc V c n hn) ∗ (∃ r, prngReg c r)) := rfl

theorem PhiS_pos (c : Dev nD) (n : ℕ) (h : n ≤ cfg1.N) (hz : n ≠ 0) :
    PhiS V c n h = iprop(others (F := F) c ∗ owns (c : Thread nD τ) scM fullShare (acc V c (n - 1) (by omega)) ∗ (∃ r, prngReg c r)) := by
  cases n with
  | zero => exact absurd rfl hz
  | succ n => rfl

/-! ## The proof data -/

/-- The arrays as the region finds them; after the body at point `t` each input's buffer at its block and the
    output's at the scaled fold (consulted at the last point only: elsewhere the window is idle and not written
    back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: which of the three cases the point is in is decided by its position (first, last, or
    neither); the invariant hands the body the scratch at the fold so far (at anything before the first point) and
    takes it back at the fold one tile longer. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 32 := lt_of_lt_of_eq t.isLt (show cfg1.N = 32 from N_1)
  by_cases hlast : t.val = 31
  · -- the last point
    have hl : isLast (grid1.coords t) := (isLast_iff t).mpr hlast
    have hf : ¬isFirst (grid1.coords t) := fun h => by have := (isFirst_iff t).mp h; omega
    have hz : t.val ≠ 0 := by omega
    rw [show (dat1 V c).leavesExact 2 t = owns (c : Thread nD τ) (ms1_2 t) fullShare ((dat1 V c).after 2 t) from by
      unfold Dat.leavesExact; rw [live1_2 t hl], after1_2]
    rw [acc_later V c t hz, Phi_castSucc V c t, PhiS_pos V c _ _ hz]
    iintro ⟨⟨HO, HS, Hg⟩, Ho, ⟨%d0, H0⟩, ⟨%d1, H1⟩, ⟨%d2, H2⟩⟩
    iapply (run_last c Set.univ (grid1.coords t) _ _ _ _ _ _ _ _ hf hl (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HO HS Hg]
    · isplitl [HO]; · iexact HO
      isplitl [HS]; · iexact HS
      iexact Hg
    isplitl [Ho]; · iexact Ho
    isplitl [H0]; · iexact H0
    isplitl [H1]; · iexact H1
    iexact H2
  · have hl : ¬isLast (grid1.coords t) := fun h => hlast ((isLast_iff t).mp h)
    rw [Dat.leavesExact_idle (dat1 V c) 2 t (idle1_2 t hl) (noFlush1_2 t hl)]
    by_cases hz : t.val = 0
    · -- the first point
      have hf : isFirst (grid1.coords t) := (isFirst_iff t).mpr hz
      rw [acc_first V c t hz, Phi_castSucc V c t, PhiS_zero V c _ _ hz]
      iintro ⟨HΦ, Ho, ⟨%d0, H0⟩, ⟨%d1, H1⟩, ⟨%d2, H2⟩⟩
      ihave HΦ' := (PhiA_elim (F := F) c) $$ HΦ
      icases HΦ' with ⟨HO, HS, Hg⟩
      iapply (run_first c Set.univ (grid1.coords t) _ _ _ _ _ _ _ _ hf hl (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HO HS Hg]
      · isplitl [HO]; · iexact HO
        isplitl [HS]; · iexact HS
        iexact Hg
      isplitl [Ho]; · iexact Ho
      isplitl [H0]; · iexact H0
      isplitl [H1]; · iexact H1
      iexists _; iexact H2
    · -- a point in between
      have hf : ¬isFirst (grid1.coords t) := fun h => hz ((isFirst_iff t).mp h)
      rw [acc_later V c t hz, Phi_castSucc V c t, PhiS_pos V c _ _ hz]
      iintro ⟨⟨HO, HS, Hg⟩, Ho, ⟨%d0, H0⟩, ⟨%d1, H1⟩, ⟨%d2, H2⟩⟩
      iapply (run_mid c Set.univ (grid1.coords t) _ _ _ _ _ _ _ _ hf hl (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HO HS Hg]
      · isplitl [HO]; · iexact HO
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class's back: what the scratch holds is forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine .trans ?_ (PhiA_intro (F := F) c)
  iintro ⟨HO, HS, Hg⟩
  isplitl [HO]; · iexact HO
  isplitl [HS]; · iexists _; iexact HS
  iexact Hg

end Cert.KernelIdeal.R1

end
-- ==== Proof.KI.Run.lean ====
/-
  The whole program's run: a stretch of two host conversions, the first kernel region, the second kernel region, as
  three segments of the pipeline library's several-regions launch. The contents of the core's buffers at each
  boundary are a fold from the launch memory: the host stretch's results, then each region's arrays at what its
  write-backs leave. Every execution terminates, and the final memory holds, at every unscoped buffer, the last
  boundary's contents; read at the results and at the arguments, for any float instance.
-/
import proofs.«105448_j18073222382222_1_alg».proof.Proof.KI.R0
import proofs.«105448_j18073222382222_1_alg».proof.Proof.KI.R1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two host conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region, likewise. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the fold holds at the arguments, and at the first region's entry -/

/-- The host stretch writes only its two results. -/
theorem W1_of_ne (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem W1_main_arg0 (c : Dev nD) : W1 m ρ c (Proc.devRef .tc main_arg0) = m ((c : Thread nD τ).loc main_arg0) :=
  (W1_of_ne m ρ c main_arg0 (by decide) (by decide)).trans rfl
theorem W1_main_arg1 (c : Dev nD) : W1 m ρ c (Proc.devRef .tc main_arg1) = m ((c : Thread nD τ).loc main_arg1) :=
  (W1_of_ne m ρ c main_arg1 (by decide) (by decide)).trans rfl
theorem W1_main_arg2 (c : Dev nD) : W1 m ρ c (Proc.devRef .tc main_arg2) = m ((c : Thread nD τ).loc main_arg2) :=
  (W1_of_ne m ρ c main_arg2 (by decide) (by decide)).trans rfl

/-- The first region's first input is the first argument, unchanged by the region; -/
theorem W2_main_arg0 (c : Dev nD) : W2 m ρ c (Proc.devRef .tc main_arg0) = m ((c : Thread nD τ).loc main_arg0) :=
  (W2_arr m ρ c 0).trans (((R0.dat0 (V1 m ρ) c).arrAt_in 0 rfl _).trans ((R0.A_eq0 (V1 m ρ) c 0).trans (W1_main_arg0 m ρ c)))
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)

/-- and so through the second region. -/
theorem W3_main_arg0 (c : Dev nD) : W3 m ρ c (Proc.devRef .tc main_arg0) = m ((c : Thread nD τ).loc main_arg0) :=
  (W3_arr m ρ c 0).trans (((R1.dat1 (V2 m ρ) c).arrAt_in 0 rfl _).trans ((R1.A_eq1 (V2 m ρ) c 0).trans (W2_main_arg0 m ρ c)))
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)

/-- The results: the first region's first two outputs are no array of the second region. -/
theorem W3_main_v2_0 (c : Dev nD) : W3 m ρ c (Proc.devRef .tc main_v2_0) = (R0.dat0 (V1 m ρ) c).arrAt 3 cfg0.N :=
  (W3_of_ne m ρ c main_v2_0 (by decide)).trans (W2_arr m ρ c 3)
theorem W3_main_v2_1 (c : Dev nD) : W3 m ρ c (Proc.devRef .tc main_v2_1) = (R0.dat0 (V1 m ρ) c).arrAt 4 cfg0.N :=
  (W3_of_ne m ρ c main_v2_1 (by decide)).trans (W2_arr m ρ c 4)
theorem W3_main_v3 (c : Dev nD) : W3 m ρ c (Proc.devRef .tc main_v3) = (R1.dat1 (V2 m ρ) c).arrAt 2 cfg1.N :=
  W3_arr m ρ c 2
/-- The second region's second input is the first region's third output. -/
theorem V2_main_v2_2 (c : Dev nD) : V2 m ρ c main_v2_2 = (R0.dat0 (V1 m ρ) c).arrAt 5 cfg0.N := W2_arr m ρ c 5
theorem V2_main_arg0 (c : Dev nD) : V2 m ρ c main_arg0 = m ((c : Thread nD τ).loc main_arg0) := W2_main_arg0 m ρ c
theorem V1_main_arg0 (c : Dev nD) : V1 m ρ c main_arg0 = m ((c : Thread nD τ).loc main_arg0) := W1_main_arg0 m ρ c

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; its invariant carries the scratch. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show (Pipeline.ΦA spec1 c : sProp 𝕄) ⊢ (pdats m ρ 1 c).Φ 0 from R1.hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from R1.hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- Every weakly fair execution terminates, and the final memory holds, at every unscoped buffer of every core, the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the three results and the three arguments: the results at what the two regions' write-backs
    leave, the arguments as launched. -/
theorem run_read : θ_run defs (onTc (τ := τ) (main (F := F))) ⟨m, fun _ => 0, ρ⟩ (fun r => ∀ c : Dev nD,
      r.2.mem ((c.tc : Thread nD τ).loc main_v2_0) = (R0.dat0 (V1 m ρ) c).arrAt 3 cfg0.N
      ∧ r.2.mem ((c.tc : Thread nD τ).loc main_v2_1) = (R0.dat0 (V1 m ρ) c).arrAt 4 cfg0.N
      ∧ r.2.mem ((c.tc : Thread nD τ).loc main_v3) = (R1.dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2_0 (by decide))).trans (W3_main_v2_0 m ρ c),
     (h c _ (mem_uc main_v2_1 (by decide))).trans (W3_main_v2_1 m ρ c),
     (h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩)
    (run_all m ρ)

/-- The frame: every execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).2.2.2.1, (h c).2.2.2.2.1, (h c).2.2.2.2.2⟩) (run_read m ρ)

end Cert.KernelIdeal.Run

end
-- ==== Proof.Alg.lean ====
/-
  The mathematics both programs compute, as functions of the three argument arrays over the extended reals:
  x : [B, 1024] (one sample per row; B = 16384 for the whole batch, 512 for one tile of it), w : [1024, 1024]
  (one analysis vector per row), r : [1024, 64] (the group indicator). Every sum is a finite sum in the
  commutative additive monoid of the extended reals, so no order or grouping of its terms matters.
  Everything about one sample depends on that sample's row alone, which is why a tile of rows can be treated
  by itself (`*_row`: equal rows give equal values).
-/
import Idealize.ShloMosaic.PureOps.Ideal
import Idealize.ShloMosaic.Lib.ValueIdx

noncomputable section

open scoped BigOperators

namespace Cert.Alg

open Idealize.ShloMosaic Idealize.ShloMosaic.ValueIdx

/-- `B` samples of 1024 pixels; the analysis matrix; the group indicator. -/
abbrev SXB (B : ℕ) : Shape := ⟨2, ![B, 1024]⟩
abbrev SW : Shape := ⟨2, ![1024, 1024]⟩
abbrev SR : Shape := ⟨2, ![1024, 64]⟩

section Rows

variable {B : ℕ} (x : (SXB B).Idx → EReal) (w : SW.Idx → EReal) (r : SR.Idx → EReal)

/-- The latent variable of sample `b` at neuron `n`: the inner product of the sample with analysis vector `n`. -/
def lat (b : Fin B) (n : Fin 1024) : EReal := ∑ p : Fin 1024, x (ix2 b p) * w (ix2 n p)

/-- The reconstruction of sample `b` at pixel `p`: the latent variables times the analysis matrix. -/
def recon (b : Fin B) (p : Fin 1024) : EReal := ∑ n : Fin 1024, lat x w b n * w (ix2 n p)

/-- The energy of sample `b` in group `g`: the squared latent variables summed through the indicator. -/
def energy (b : Fin B) (g : Fin 64) : EReal := ∑ n : Fin 1024, (lat x w b n * lat x w b n) * r (ix2 n g)

/-- The nonlinearity of a group's energy: minus one half (the f32 word 0xBF000000) of its inverse square root. -/
def nonlin (b : Fin B) (g : Fin 64) : EReal :=
  Ideal.ofBits .f32 0xBF000000#32 * Ideal.rsqrt (energy x w r b g)

/-- The nonlinearity sent back from groups to neurons through the indicator. -/
def spread (b : Fin B) (n : Fin 1024) : EReal := ∑ g : Fin 64, nonlin x w r b g * r (ix2 n g)

/-- The gradient term of sample `b` at neuron `n`. -/
def gterm (b : Fin B) (n : Fin 1024) : EReal := lat x w b n * spread x w r b n

/-- The three per-sample results as arrays of `B` rows. -/
def latArr : (SXB B).Idx → EReal := fun i => lat x w (i 0) (i 1)
def reconArr : (SXB B).Idx → EReal := fun i => recon x w (i 0) (i 1)
def gtermArr : (SXB B).Idx → EReal := fun i => gterm x w r (i 0) (i 1)

end Rows

section RowsAgree

variable {B B' : ℕ} (x : (SXB B).Idx → EReal) (x' : (SXB B').Idx → EReal) (w : SW.Idx → EReal) (r : SR.Idx → EReal)
  (b : Fin B) (b' : Fin B') (h : ∀ p : Fin 1024, x (ix2 b p) = x' (ix2 b' p))

include h

/-- A sample's latent variables are a function of its row: two arrays agreeing on a row agree there. -/
theorem lat_row (n : Fin 1024) : lat x w b n = lat x' w b' n := by
  unfold lat; exact Finset.sum_congr rfl fun p _ => by rw [h p]

theorem recon_row (p : Fin 1024) : recon x w b p = recon x' w b' p := by
  unfold recon; exact Finset.sum_congr rfl fun n _ => by rw [lat_row x x' w b b' h n]

theorem energy_row (g : Fin 64) : energy x w r b g = energy x' w r b' g := by
  unfold energy; exact Finset.sum_congr rfl fun n _ => by rw [lat_row x x' w b b' h n]

theorem nonlin_row (g : Fin 64) : nonlin x w r b g = nonlin x' w r b' g := by
  unfold nonlin; rw [energy_row x x' w r b b' h g]

theorem spread_row (n : Fin 1024) : spread x w r b n = spread x' w r b' n := by
  unfold spread; exact Finset.sum_congr rfl fun g _ => by rw [nonlin_row x x' w r b b' h g]

theorem gterm_row (n : Fin 1024) : gterm x w r b n = gterm x' w r b' n := by
  unfold gterm; rw [lat_row x x' w b b' h n, spread_row x x' w r b b' h n]

end RowsAgree

section Batch

variable (x : (SXB 16384).Idx → EReal) (w : SW.Idx → EReal) (r : SR.Idx → EReal)

/-- The sum over all 16384 samples of pixel `p` times the gradient term at neuron `n`. -/
def gsum (p n : Fin 1024) : EReal := ∑ b : Fin 16384, x (ix2 b p) * gterm x w r b n

/-- The averaged gradient: that sum times 1/16384. -/
def avg (p n : Fin 1024) : EReal := gsum x w r p n * ((1 / 16384 : ℝ) : EReal)

def avgArr : SW.Idx → EReal := fun i => avg x w r (i 0) (i 1)

end Batch

end Cert.Alg

end
-- ==== Proof.PayRows.lean ====
/-
  What the first kernel's body computes on one tile of 512 samples, over the extended reals: its three
  stored values are the latent variables, the reconstruction and the gradient term of the tile's rows
  (the functions of `Cert.Alg` with 512 rows). Each of the body's four matrix products into a zero
  accumulator is, element by element, the finite sum over the one contracted axis of the products of the
  operands' elements; the roundings to bf16 are the identity on the extended reals; the inverse square
  root and the products act element by element.
-/
import proofs.«105448_j18073222382222_1_alg».proof.Proof.Alg
import proofs.«105448_j18073222382222_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.PayRows

open Cert.KernelIdeal Cert.KernelIdeal.Gen Idealize.ShloMosaic Idealize.ShloMosaic.ValueIdx Idealize.SL.Sem

/-! ## The four matrix products at an element -/

theorem mm_lat_l0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem mm_lat_l1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm_lat_r1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q
theorem mm_lat_r0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
/-- Samples times analysis vectors, both contracted along their second axis: element `(a, n)` is the sum
    over `k` of `v1 (a, k) * v3 (n, k)`. -/
theorem mm_lat (v1 : FVec Ideal S512x1024 .bf16) (v3 : FVec Ideal S1024x1024 .bf16) (a : Fin 512) (n : Fin 1024) :
    matmul dot_S512x1024_S1024x1024_S512x1024_1_1_0_0_n_n none v1 v3 (constant S512x1024 .f32 0x00000000#32) (ix2 a n)
      = ∑ k : Fin 1024, v1 (ix2 a k) * v3 (ix2 n k) := by
  refine (Ideal.matmul_constant_zero_apply dot_S512x1024_S1024x1024_S512x1024_1_1_0_0_n_n none v1 v3 (ix2 a n)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 a n) ((contrEquiv1 dot_S512x1024_S1024x1024_S512x1024_1_1_0_0_n_n 1024 rfl rfl).symm k) = ix2 a k :=
    funext fun c => Fin.ext (by
      match c with
      | ⟨0, _⟩ => exact mm_lat_l0 _ _
      | ⟨1, _⟩ => exact (mm_lat_l1 _ _).trans hk)
  have er : dot_S512x1024_S1024x1024_S512x1024_1_1_0_0_n_n.rhsIdx (ix2 a n) ((contrEquiv1 dot_S512x1024_S1024x1024_S512x1024_1_1_0_0_n_n 1024 rfl rfl).symm k) = ix2 n k :=
    funext fun c => Fin.ext (by
      match c with
      | ⟨1, _⟩ => exact (mm_lat_r1 _ _).trans hk
      | ⟨0, _⟩ => exact mm_lat_r0 _ _)
  rw [el, er]

theorem mm_recon_l0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem mm_recon_l1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_recon_r0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_recon_r1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl
/-- Latent variables times the analysis matrix, the second axis of the first against the first axis of the
    second: element `(a, n)` is the sum over `k` of `v1 (a, k) * v3 (k, n)`. -/
theorem mm_recon (v1 : FVec Ideal S512x1024 .bf16) (v3 : FVec Ideal S1024x1024 .bf16) (a : Fin 512) (n : Fin 1024) :
    matmul dot_S512x1024_S1024x1024_S512x1024_1_0_0_1_n_n none v1 v3 (constant S512x1024 .f32 0x00000000#32) (ix2 a n)
      = ∑ k : Fin 1024, v1 (ix2 a k) * v3 (ix2 k n) := by
  refine (Ideal.matmul_constant_zero_apply dot_S512x1024_S1024x1024_S512x1024_1_0_0_1_n_n none v1 v3 (ix2 a n)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 a n) ((contrEquiv1 dot_S512x1024_S1024x1024_S512x1024_1_0_0_1_n_n 1024 rfl rfl).symm k) = ix2 a k :=
    funext fun c => Fin.ext (by
      match c with
      | ⟨0, _⟩ => exact mm_recon_l0 _ _
      | ⟨1, _⟩ => exact (mm_recon_l1 _ _).trans hk)
  have er : dot_S512x1024_S1024x1024_S512x1024_1_0_0_1_n_n.rhsIdx (ix2 a n) ((contrEquiv1 dot_S512x1024_S1024x1024_S512x1024_1_0_0_1_n_n 1024 rfl rfl).symm k) = ix2 k n :=
    funext fun c => Fin.ext (by
      match c with
      | ⟨0, _⟩ => exact (mm_recon_r0 _ _).trans hk
      | ⟨1, _⟩ => exact mm_recon_r1 _ _)
  rw [el, er]

theorem mm_energy_l0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
theorem mm_energy_l1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem mm_energy_r0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem mm_energy_r1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl
/-- Squared latent variables times the indicator: element `(a, g)` is the sum over `k` of `v1 (a, k) * v3 (k, g)`. -/
theorem mm_energy (v1 : FVec Ideal S512x1024 .bf16) (v3 : FVec Ideal S1024x64 .bf16) (a : Fin 512) (n : Fin 64) :
    matmul dot_S512x1024_S1024x64_S512x64_1_0_0_1_n_n none v1 v3 (constant S512x64 .f32 0x00000000#32) (ix2 a n)
      = ∑ k : Fin 1024, v1 (ix2 a k) * v3 (ix2 k n) := by
  refine (Ideal.matmul_constant_zero_apply dot_S512x1024_S1024x64_S512x64_1_0_0_1_n_n none v1 v3 (ix2 a n)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 a n) ((contrEquiv1 dot_S512x1024_S1024x64_S512x64_1_0_0_1_n_n 1024 rfl rfl).symm k) = ix2 a k :=
    funext fun c => Fin.ext (by
      match c with
      | ⟨0, _⟩ => exact mm_energy_l0 _ _
      | ⟨1, _⟩ => exact (mm_energy_l1 _ _).trans hk)
  have er : dot_S512x1024_S1024x64_S512x64_1_0_0_1_n_n.rhsIdx (ix2 a n) ((contrEquiv1 dot_S512x1024_S1024x64_S512x64_1_0_0_1_n_n 1024 rfl rfl).symm k) = ix2 k n :=
    funext fun c => Fin.ext (by
      match c with
      | ⟨0, _⟩ => exact (mm_energy_r0 _ _).trans hk
      | ⟨1, _⟩ => exact mm_energy_r1 _ _)
  rw [el, er]

theorem mm_spread_l0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide),
    dif_pos (show (0 : Fin S512x64.rank) ∈ dot_S512x64_S1024x64_S512x1024_1_1_0_0_n_n.lhsNonContracting by decide)]
  rfl
theorem mm_spread_l1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
theorem mm_spread_r1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q
theorem mm_spread_r0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide),
    dif_pos (show (0 : Fin S1024x64.rank) ∈ dot_S512x64_S1024x64_S512x1024_1_1_0_0_n_n.rhsNonContracting by decide)]
  rfl
/-- Group values times the indicator, both contracted along their second axis: element `(a, n)` is the sum
    over `g` of `v1 (a, g) * v3 (n, g)`. -/
theorem mm_spread (v1 : FVec Ideal S512x64 .bf16) (v3 : FVec Ideal S1024x64 .bf16) (a : Fin 512) (n : Fin 1024) :
    matmul dot_S512x64_S1024x64_S512x1024_1_1_0_0_n_n none v1 v3 (constant S512x1024 .f32 0x00000000#32) (ix2 a n)
      = ∑ k : Fin 64, v1 (ix2 a k) * v3 (ix2 n k) := by
  refine (Ideal.matmul_constant_zero_apply dot_S512x64_S1024x64_S512x1024_1_1_0_0_n_n none v1 v3 (ix2 a n)).trans ?_
  rw [← Equiv.sum_comp (contrEquiv1 dot_S512x64_S1024x64_S512x1024_1_1_0_0_n_n 64 rfl rfl).symm]
  refine Finset.sum_congr rfl fun k _ => ?_
  have hk := contrEquiv1_symm_val dot_S512x64_S1024x64_S512x1024_1_1_0_0_n_n 64 rfl rfl k
  have el : dot_S512x64_S1024x64_S512x1024_1_1_0_0_n_n.lhsIdx (ix2 a n) ((contrEquiv1 dot_S512x64_S1024x64_S512x1024_1_1_0_0_n_n 64 rfl rfl).symm k) = ix2 a k :=
    funext fun c => Fin.ext (by
      match c with
      | ⟨0, _⟩ => exact mm_spread_l0 _ _
      | ⟨1, _⟩ => exact (mm_spread_l1 _ _).trans hk)
  have er : dot_S512x64_S1024x64_S512x1024_1_1_0_0_n_n.rhsIdx (ix2 a n) ((contrEquiv1 dot_S512x64_S1024x64_S512x1024_1_1_0_0_n_n 64 rfl rfl).symm k) = ix2 n k :=
    funext fun c => Fin.ext (by
      match c with
      | ⟨1, _⟩ => exact (mm_spread_r1 _ _).trans hk
      | ⟨0, _⟩ => exact mm_spread_r0 _ _)
  rw [el, er]

/-! ## The three stored values -/

/-- The first stored value is the tile's latent variables. -/
theorem pay2_eq (v0 : Vec Ideal S512x1024 .f32) (v2 : Vec Ideal S1024x1024 .bf16) :
    k0_pay2 (F := Ideal) v0 v2 = Cert.Alg.latArr (B := 512) v0 v2 := by
  funext j
  obtain ⟨a, n, rfl⟩ : ∃ (a : Fin 512) (n : Fin 1024), j = ix2 a n := ⟨j 0, j 1, eq_ix2 j⟩
  unfold k0_pay2 k0_pay1
  rw [shapeCast_self]
  refine (mm_lat _ _ a n).trans ?_
  rfl

/-- The latent variables at coordinates. -/
theorem pay2_apply (v0 : Vec Ideal S512x1024 .f32) (v2 : Vec Ideal S1024x1024 .bf16) (a : Fin 512) (n : Fin 1024) :
    k0_pay2 (F := Ideal) v0 v2 (ix2 a n) = Cert.Alg.lat (B := 512) v0 v2 a n := by
  rw [pay2_eq]; rfl

/-- The second stored value is the tile's reconstruction. -/
theorem pay3_eq (v0 : Vec Ideal S512x1024 .f32) (v2 : Vec Ideal S1024x1024 .bf16) :
    k0_pay3 (F := Ideal) v0 v2 = Cert.Alg.reconArr (B := 512) v0 v2 := by
  funext j
  obtain ⟨a, n, rfl⟩ : ∃ (a : Fin 512) (n : Fin 1024), j = ix2 a n := ⟨j 0, j 1, eq_ix2 j⟩
  unfold k0_pay3 k0_pay1
  rw [shapeCast_self]
  refine (mm_recon _ _ a n).trans ?_
  show _ = Cert.Alg.recon (B := 512) v0 v2 a n
  unfold Cert.Alg.recon
  refine Finset.sum_congr rfl fun k _ => ?_
  rw [truncf_apply, pay2_apply]

/-- The third stored value is the tile's gradient term: the energy of each group is the sum of the squared
    latent variables through the indicator, the nonlinearity is minus one half of its inverse square root,
    and the product with the indicator sends it back to the neurons. -/
theorem pay4_eq (v0 : Vec Ideal S512x1024 .f32) (v2 : Vec Ideal S1024x1024 .bf16) (v7 : Vec Ideal S1024x64 .bf16) :
    k0_pay4 (F := Ideal) v0 v2 v7 = Cert.Alg.gtermArr (B := 512) v0 v2 v7 := by
  funext j
  obtain ⟨a, n, rfl⟩ : ∃ (a : Fin 512) (n : Fin 1024), j = ix2 a n := ⟨j 0, j 1, eq_ix2 j⟩
  unfold k0_pay4
  rw [shapeCast_self]
  refine (mulf_apply _ _ _).trans ?_
  show _ = Cert.Alg.lat (B := 512) v0 v2 a n * Cert.Alg.spread (B := 512) v0 v2 v7 a n
  rw [pay2_apply]
  refine congrArg (Cert.Alg.lat (B := 512) v0 v2 a n * ·) ?_
  refine (mm_spread _ _ a n).trans ?_
  unfold Cert.Alg.spread
  refine Finset.sum_congr rfl fun g _ => ?_
  refine congrArg (· * v7 (ix2 n g)) ?_
  rw [truncf_apply, mulf_apply, broadcast_apply]
  unfold Cert.Alg.nonlin
  refine congrArg (fun e => Ideal.ofBits .f32 0xBF000000#32 * Ideal.rsqrt e) ?_
  refine (mm_energy _ _ a g).trans ?_
  unfold Cert.Alg.energy
  refine Finset.sum_congr rfl fun k _ => ?_
  rw [truncf_apply, mulf_apply, pay2_apply]

end Cert.PayRows

end
-- ==== Proof.KI.R0Value.lean ====
/-
  From the first region's blocks to its three output arrays, over the extended reals.

  The region's grid has 32 points; point `t` reads rows `512 t … 512 t + 511` of the sample array (its tile), the
  whole analysis matrix and the whole group indicator, and writes back rows `512 t … 512 t + 511` of each of the
  three output arrays. What it writes back is the latent variables, the reconstruction and the gradient term OF THE
  TILE, and each of those, at a sample, depends on that sample's row alone: so row `512 t + a` of what point `t`
  writes is row `512 t + a` of the latent variables (the reconstruction, the gradient term) of the WHOLE sample
  array. Every row `r` is written by point `r / 512`; hence each output array ends holding the whole batch's values.
-/
import proofs.«105448_j18073222382222_1_alg».proof.Proof.KI.R0
import proofs.«105448_j18073222382222_1_alg».proof.Proof.PayRows
import proofs.«105448_j18073222382222_1_alg».proof.Proof.Alg
import Idealize.ShloMosaic.Lib.Pipeline.Value

set_option maxRecDepth 16384

noncomputable section

namespace Cert.KernelIdeal.R0V

open Cert.KernelIdeal Cert.KernelIdeal.Gen Cert.KernelIdeal.R0 Idealize.ShloMosaic Idealize.ShloMosaic.TcCoe Idealize.SL.Sem
open Idealize.ShloMosaic.ValueIdx
open Idealize.ShloMosaic.Pipeline (Dat)
open Cert.Alg (SXB SW SR lat recon gterm latArr reconArr gtermArr)

/-! ## A tile's values are the batch's values on the tile's rows -/

section Tile

variable (X : (SXB 16384).Idx → EReal) (x : (SXB 512).Idx → EReal) (w : SW.Idx → EReal) (r : SR.Idx → EReal) (k : ℕ)
  (hx : ∀ (a : Fin 512) (b : Fin 16384) (p : Fin 1024), b.val = 512 * k + a.val → x (ix2 a p) = X (ix2 b p))

include hx

/-- If `x` is tile `k` of `X` (row `a` of `x` is row `512 k + a` of `X`), the latent variables of `x` at row `a`
    are those of `X` at row `512 k + a`; -/
theorem latArr_tile (a : Fin 512) (n : Fin 1024) (i : (SXB 16384).Idx) (h0 : (i 0).val = 512 * k + a.val) (h1 : (i 1).val = n.val) :
    latArr x w (ix2 a n) = latArr X w i :=
  (Cert.Alg.lat_row x X w a (i 0) (fun p => hx a (i 0) p h0) n).trans
    (congrArg (lat X w (i 0)) (Fin.ext h1.symm : n = i 1))

/-- so is the reconstruction, -/
theorem reconArr_tile (a : Fin 512) (n : Fin 1024) (i : (SXB 16384).Idx) (h0 : (i 0).val = 512 * k + a.val) (h1 : (i 1).val = n.val) :
    reconArr x w (ix2 a n) = reconArr X w i :=
  (Cert.Alg.recon_row x X w a (i 0) (fun p => hx a (i 0) p h0) n).trans
    (congrArg (recon X w (i 0)) (Fin.ext h1.symm : n = i 1))

/-- and the gradient term. -/
theorem gtermArr_tile (a : Fin 512) (n : Fin 1024) (i : (SXB 16384).Idx) (h0 : (i 0).val = 512 * k + a.val) (h1 : (i 1).val = n.val) :
    gtermArr x w r (ix2 a n) = gtermArr X w r i :=
  (Cert.Alg.gterm_row x X w r a (i 0) (fun p => hx a (i 0) p h0) n).trans
    (congrArg (gterm X w r (i 0)) (Fin.ext h1.symm : n = i 1))

end Tile

-- the buffers' contents when the region is entered
variable (V : (c : Dev nD) → (b : Ref sig .tc) → Buf (Elt Ideal) ((c : Thread nD τ).loc b))

/-! ## Where the windows' blocks sit -/

/-- The block indices over the grid: the sample tile and the three outputs move down the rows with the point; the
    matrix and the indicator stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `a` of the sample tile at point `t` is row `512 t + a` of the sample array. -/
theorem tile_read (c : Dev nD) (t : Fin cfg0.N) (a : Fin 512) (b : Fin 16384) (p : Fin 1024) (h : b.val = 512 * t.val + a.val) :
    (iblk0 V c 0 t : (SXB 512).Idx → EReal) (ix2 a p) = (V c main_arg0 : (SXB 16384).Idx → EReal) (ix2 b p) := by
  obtain ⟨e0, e1, -⟩ := block_indices t
  show (V c main_arg0 : (SXB 16384).Idx → EReal) (((cfg0.win 0).blk t).view.emb (ix2 a p)) = _
  refine congrArg _ ?_
  funext ax; apply Fin.ext
  match ax with
  | ⟨0, _⟩ => show win0_0.index t (0 : Fin 2) * 512 + 1 * a.val = b.val; omega
  | ⟨1, _⟩ => show win0_0.index t (1 : Fin 2) * 1024 + 1 * p.val = p.val; omega

/-- The matrix's block at any point is the whole matrix, -/
theorem matrix_read (c : Dev nD) (t : Fin cfg0.N) : (iblk0 V c 1 t : SW.Idx → EReal) = V c main_v0 := by
  obtain ⟨-, -, e0, e1, -⟩ := block_indices t
  funext y
  show (V c main_v0 : SW.Idx → EReal) (((cfg0.win 1).blk t).view.emb y) = _
  refine congrArg _ ?_
  funext ax; apply Fin.ext
  match ax with
  | ⟨0, _⟩ => show win0_1.index t (0 : Fin 2) * 1024 + 1 * (y 0).val = (y 0).val; omega
  | ⟨1, _⟩ => show win0_1.index t (1 : Fin 2) * 1024 + 1 * (y 1).val = (y 1).val; omega

/-- and the indicator's the whole indicator. -/
theorem indicator_read (c : Dev nD) (t : Fin cfg0.N) : (iblk0 V c 2 t : SR.Idx → EReal) = V c main_v1 := by
  obtain ⟨-, -, -, -, e0, e1, -⟩ := block_indices t
  funext y
  show (V c main_v1 : SR.Idx → EReal) (((cfg0.win 2).blk t).view.emb y) = _
  refine congrArg _ ?_
  funext ax; apply Fin.ext
  match ax with
  | ⟨0, _⟩ => show win0_2.index t (0 : Fin 2) * 1024 + 1 * (y 0).val = (y 0).val; omega
  | ⟨1, _⟩ => show win0_2.index t (1 : Fin 2) * 64 + 1 * (y 1).val = (y 1).val; omega

/-! ## What each point writes back -/

/-- Point `t` writes back, to the first output array, block `t` of the whole batch's latent variables. -/
theorem flushed_lat (c : Dev nD) (t : Fin cfg0.N) :
    (dat0 V c).flushed 3 t = ((cfg0.win 3).blk t).view.read (Elt Ideal) (latArr (B := 16384) (V c main_arg0) (V c main_v0)) := by
  show (cfg0.win 3).cut (grid0.coords t) ((dat0 V c).after 3 t) = _
  rw [after0_3, Cert.PayRows.pay2_eq, matrix_read]
  obtain ⟨-, -, -, -, -, -, e0, e1, -⟩ := block_indices t
  refine funext fun (y : S512x1024.Idx) => ?_
  obtain ⟨a, n, rfl⟩ : ∃ (a : Fin 512) (n : Fin 1024), y = ix2 a n := ⟨y 0, y 1, eq_ix2 y⟩
  show latArr (B := 512) (iblk0 V c 0 t) (V c main_v0) (ix2 a n)
    = latArr (B := 16384) (V c main_arg0) (V c main_v0) (((cfg0.win 3).blk t).view.emb (ix2 a n))
  refine latArr_tile _ _ _ t.val (fun a b p h => tile_read V c t a b p h) a n _ ?_ ?_
  · show win0_3.index t (0 : Fin 2) * 512 + 1 * a.val = 512 * t.val + a.val; omega
  · show win0_3.index t (1 : Fin 2) * 1024 + 1 * n.val = n.val; omega

/-- To the second, block `t` of the whole batch's reconstruction. -/
theorem flushed_recon (c : Dev nD) (t : Fin cfg0.N) :
    (dat0 V c).flushed 4 t = ((cfg0.win 4).blk t).view.read (Elt Ideal) (reconArr (B := 16384) (V c main_arg0) (V c main_v0)) := by
  show (cfg0.win 4).cut (grid0.coords t) ((dat0 V c).after 4 t) = _
  rw [after0_4, Cert.PayRows.pay3_eq, matrix_read]
  obtain ⟨-, -, -, -, -, -, -, -, e0, e1, -⟩ := block_indices t
  refine funext fun (y : S512x1024.Idx) => ?_
  obtain ⟨a, n, rfl⟩ : ∃ (a : Fin 512) (n : Fin 1024), y = ix2 a n := ⟨y 0, y 1, eq_ix2 y⟩
  show reconArr (B := 512) (iblk0 V c 0 t) (V c main_v0) (ix2 a n)
    = reconArr (B := 16384) (V c main_arg0) (V c main_v0) (((cfg0.win 4).blk t).view.emb (ix2 a n))
  refine reconArr_tile _ _ _ t.val (fun a b p h => tile_read V c t a b p h) a n _ ?_ ?_
  · show win0_4.index t (0 : Fin 2) * 512 + 1 * a.val = 512 * t.val + a.val; omega
  · show win0_4.index t (1 : Fin 2) * 1024 + 1 * n.val = n.val; omega

/-- To the third, block `t` of the whole batch's gradient term. -/
theorem flushed_gterm (c : Dev nD) (t : Fin cfg0.N) :
    (dat0 V c).flushed 5 t = ((cfg0.win 5).blk t).view.read (Elt Ideal) (gtermArr (B := 16384) (V c main_arg0) (V c main_v0) (V c main_v1)) := by
  show (cfg0.win 5).cut (grid0.coords t) ((dat0 V c).after 5 t) = _
  rw [after0_5, Cert.PayRows.pay4_eq, matrix_read, indicator_read]
  obtain ⟨-, -, -, -, -, -, -, -, -, -, e0, e1⟩ := block_indices t
  refine funext fun (y : S512x1024.Idx) => ?_
  obtain ⟨a, n, rfl⟩ : ∃ (a : Fin 512) (n : Fin 1024), y = ix2 a n := ⟨y 0, y 1, eq_ix2 y⟩
  show gtermArr (B := 512) (iblk0 V c 0 t) (V c main_v0) (V c main_v1) (ix2 a n)
    = gtermArr (B := 16384) (V c main_arg0) (V c main_v0) (V c main_v1) (((cfg0.win 5).blk t).view.emb (ix2 a n))
  refine gtermArr_tile _ _ _ _ t.val (fun a b p h => tile_read V c t a b p h) a n _ ?_ ?_
  · show win0_5.index t (0 : Fin 2) * 512 + 1 * a.val = 512 * t.val + a.val; omega
  · show win0_5.index t (1 : Fin 2) * 1024 + 1 * n.val = n.val; omega

/-! ## The blocks written back cover the arrays -/

/-- An index of an output array is in point `t`'s block iff each coordinate is in the block's range on its axis. -/
theorem mem_block_lat (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2_0).slice (win0_3.rect t)).set ↔ _
  rw [View.set_slice_whole, Rect.mem_set_unit]
  exact Iff.rfl

theorem mem_block_recon (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v2_1).slice (win0_4.rect t)).set ↔ _
  rw [View.set_slice_whole, Rect.mem_set_unit]
  exact Iff.rfl

theorem mem_block_gterm (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2_2).slice (win0_5.rect t)).set ↔ _
  rw [View.set_slice_whole, Rect.mem_set_unit]
  exact Iff.rfl

/-- The point whose tile holds row `r`: `r / 512`. -/
theorem point_of_row (i : S16384x1024.Idx) : ∃ t : Fin cfg0.N, t.val = (i 0).val / 512 := by
  have hi0 : (i 0).val < 16384 := (i 0).isLt
  have hN : cfg0.N = 32 := N_0
  exact ⟨⟨(i 0).val / 512, by rw [hN]; omega⟩, rfl⟩

/-- Every index of the first output array is in the block of a point that writes it back; -/
theorem cover_lat (i : S16384x1024.Idx) : ∃ t : Fin cfg0.N, (cfg0.win 3).flush t = true ∧ i ∈ ((cfg0.win 3).blk t).view.set := by
  have hi1 : (i 1).val < 1024 := (i 1).isLt
  obtain ⟨t, ht⟩ := point_of_row i
  obtain ⟨-, -, -, -, -, -, e0, e1, -⟩ := block_indices t
  refine ⟨t, flush0_3 t, ?_⟩
  rw [mem_block_lat]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- of the second; -/
theorem cover_recon (i : S16384x1024.Idx) : ∃ t : Fin cfg0.N, (cfg0.win 4).flush t = true ∧ i ∈ ((cfg0.win 4).blk t).view.set := by
  have hi1 : (i 1).val < 1024 := (i 1).isLt
  obtain ⟨t, ht⟩ := point_of_row i
  obtain ⟨-, -, -, -, -, -, -, -, e0, e1, -⟩ := block_indices t
  refine ⟨t, flush0_4 t, ?_⟩
  rw [mem_block_recon]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- of the third. -/
theorem cover_gterm (i : S16384x1024.Idx) : ∃ t : Fin cfg0.N, (cfg0.win 5).flush t = true ∧ i ∈ ((cfg0.win 5).blk t).view.set := by
  have hi1 : (i 1).val < 1024 := (i 1).isLt
  obtain ⟨t, ht⟩ := point_of_row i
  obtain ⟨-, -, -, -, -, -, -, -, -, -, e0, e1⟩ := block_indices t
  refine ⟨t, flush0_5 t, ?_⟩
  rw [mem_block_gterm]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The three output arrays after the region -/

/-- The first output array ends holding the whole batch's latent variables, -/
theorem final_lat (c : Dev nD) : (Cert.KernelIdeal.R0.dat0 V c).arrAt 3 cfg0.N = Cert.Alg.latArr (B := 16384) (V c main_arg0) (V c main_v0) :=
  (dat0 V c).arrAt_eq_of_cover 3 _ (fun t _ => flushed_lat V c t) cover_lat

/-- the second their reconstruction, -/
theorem final_recon (c : Dev nD) : (Cert.KernelIdeal.R0.dat0 V c).arrAt 4 cfg0.N = Cert.Alg.reconArr (B := 16384) (V c main_arg0) (V c main_v0) :=
  (dat0 V c).arrAt_eq_of_cover 4 _ (fun t _ => flushed_recon V c t) cover_recon

/-- the third their gradient term. -/
theorem final_gterm (c : Dev nD) : (Cert.KernelIdeal.R0.dat0 V c).arrAt 5 cfg0.N = Cert.Alg.gtermArr (B := 16384) (V c main_arg0) (V c main_v0) (V c main_v1) :=
  (dat0 V c).arrAt_eq_of_cover 5 _ (fun t _ => flushed_gterm V c t) cover_gterm

end Cert.KernelIdeal.R0V

end
-- ==== Proof.LibTileSum.lean ====
/-
  A sum over consecutive positions, cut into tiles of equal length: the sum over `B * R` positions is the sum, over
  the `B` tiles, of the sums over a tile's `R` positions, position `r` of tile `j` being `R * j + r`. Stated for any
  commutative additive monoid, then at 4096 positions in 8 tiles of 512.
-/
import Mathlib.Data.Fintype.BigOperators
import Mathlib.Logic.Equiv.Fin.Basic

open scoped BigOperators

namespace Cert.LibTileSum

/-- Position `r` of tile `j`, among `B` tiles of `R` positions each, lies below `B * R`: it is below the first position
    of tile `j + 1`, and there are at most `B` tiles. -/
theorem tile_lt {B R : ℕ} (j : Fin B) (r : Fin R) : R * j.val + r.val < B * R :=
  calc R * j.val + r.val < R * j.val + R := Nat.add_lt_add_left r.isLt _
    _ = R * (j.val + 1) := (Nat.mul_succ _ _).symm
    _ ≤ R * B := Nat.mul_le_mul_left _ j.isLt
    _ = B * R := Nat.mul_comm _ _

/-- A sum over `B * R` consecutive positions is the sum over the `B` tiles of the sums over a tile's `R` positions:
    every position is `R * j + r` for exactly one tile `j` and one place `r` in it (quotient and remainder by `R`), so
    the positions are re-indexed by the pairs `(j, r)` and the sum over pairs is the iterated sum. -/
theorem sum_tiles {M : Type*} [AddCommMonoid M] (B R : ℕ) (f : Fin (B * R) → M) :
    ∑ s : Fin (B * R), f s = ∑ j : Fin B, ∑ r : Fin R, f ⟨R * j.val + r.val, tile_lt j r⟩ := by
  rw [← Equiv.sum_comp (finProdFinEquiv (m := B) (n := R)) f, Fintype.sum_prod_type]
  refine Finset.sum_congr rfl fun j _ => Finset.sum_congr rfl fun r _ => congrArg f (Fin.ext ?_)
  show r.val + R * j.val = R * j.val + r.val
  exact Nat.add_comm _ _

/-- The instance at 4096 positions in 8 tiles of 512: position `r` of tile `j` is `512 * j + r`. -/
theorem sum_tiles_4096 {M : Type*} [AddCommMonoid M] (f : Fin 4096 → M) :
    ∑ s : Fin 4096, f s = ∑ j : Fin 8, ∑ r : Fin 512, f ⟨512 * j.val + r.val, by omega⟩ :=
  sum_tiles 8 512 f

end Cert.LibTileSum
-- ==== Proof.PayAcc.lean ====
/-
  What the body of the second kernel computes, at the extended reals, and the law of its tiles.
  The second kernel walks the 16384 samples in 32 tiles of 512. Before the first tile it sets its accumulator, a
  [1024, 1024] array, to zero; at each tile it adds to the accumulator, at (pixel p, neuron n), the sum over the tile's
  512 samples of the sample's pixel p times the sample's gradient term at neuron n (a product of the transposed tile of
  samples with the tile of gradient terms, taken into a zero array and then added); after the last tile it multiplies
  the accumulator by 2^-14 = 1/16384. At the extended reals a rounding to a narrower format is the identity, a cast of
  an array to its own shape is the identity, and every sum is a finite sum in a commutative additive monoid.
  The tile law: the sum over 16384 consecutive positions is the sum over the 32 tiles of the sums over a tile's 512
  positions, and the accumulator after all 32 tiles, started from zero, is that whole sum.
-/
import proofs.«105448_j18073222382222_1_alg».proof.Proof.Alg
import proofs.«105448_j18073222382222_1_alg».proof.Proof.LibTileSum
import proofs.«105448_j18073222382222_1_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.PayAcc

open Idealize.ShloMosaic Idealize.ShloMosaic.ValueIdx Idealize.SL.Sem

/-- The f32 word 0x38800000 (sign 0, exponent field 113, fraction 0) denotes 2^(113 - 127) = 2^-14 = 1/16384. -/
theorem ofBits_inv16384 : Ideal.ofBits .f32 0x38800000#32 = ((1 / 16384 : ℝ) : EReal) := by
  simp [Ideal.ofBits, Ideal.ieee, -EReal.coe_mul]; norm_num

/-- The accumulator's initial value: the zero word broadcast, cast to its own shape, is zero everywhere. -/
theorem pay1_apply (i : Cert.KernelIdeal.S1024x1024.Idx) : Cert.KernelIdeal.Gen.k1_pay1 (F := Ideal) i = 0 := by
  unfold Cert.KernelIdeal.Gen.k1_pay1
  rw [shapeCast_self]
  exact Ideal.ofBits_zero_f32

/-- The contraction of the tile's product has one axis, of 512 positions. -/
theorem contr_rank : (Cert.KernelIdeal.dot_S512x1024_S512x1024_S1024x1024_0_0_1_1_n_n).contr.rank = 1 := rfl

/-- The left operand's second coordinate is not contracted: it is the output's first coordinate (the pixel). -/
theorem lhs_1 (j : Cert.KernelIdeal.S1024x1024.Idx) (q : (Cert.KernelIdeal.dot_S512x1024_S512x1024_S1024x1024_0_0_1_1_n_n).contr.Idx) :
    ((Cert.KernelIdeal.dot_S512x1024_S512x1024_S1024x1024_0_0_1_1_n_n).lhsIdx j q 1).val = (j 0).val := by
  unfold DotDims.lhsIdx
  rw [dif_neg (show ¬(1 : Fin Cert.KernelIdeal.S512x1024.rank) ∈ (Cert.KernelIdeal.dot_S512x1024_S512x1024_S1024x1024_0_0_1_1_n_n).lhsBatch by decide),
    dif_pos (show (1 : Fin Cert.KernelIdeal.S512x1024.rank) ∈ (Cert.KernelIdeal.dot_S512x1024_S512x1024_S1024x1024_0_0_1_1_n_n).lhsNonContracting by decide)]
  rfl

/-- The right operand's second coordinate is not contracted: it is the output's second coordinate (the neuron). -/
theorem rhs_1 (j : Cert.KernelIdeal.S1024x1024.Idx) (q : (Cert.KernelIdeal.dot_S512x1024_S512x1024_S1024x1024_0_0_1_1_n_n).contr.Idx) :
    ((Cert.KernelIdeal.dot_S512x1024_S512x1024_S1024x1024_0_0_1_1_n_n).rhsIdx j q 1).val = (j 1).val := by
  unfold DotDims.rhsIdx
  rw [dif_neg (show ¬(1 : Fin Cert.KernelIdeal.S512x1024.rank) ∈ (Cert.KernelIdeal.dot_S512x1024_S512x1024_S1024x1024_0_0_1_1_n_n).rhsBatch by decide),
    dif_pos (show (1 : Fin Cert.KernelIdeal.S512x1024.rank) ∈ (Cert.KernelIdeal.dot_S512x1024_S512x1024_S1024x1024_0_0_1_1_n_n).rhsNonContracting by decide)]
  rfl

/-- The contracted first coordinate of the left operand is the contraction position. -/
theorem lhs_0 (j : Cert.KernelIdeal.S1024x1024.Idx) (q : (Cert.KernelIdeal.dot_S512x1024_S512x1024_S1024x1024_0_0_1_1_n_n).contr.Idx) :
    ((Cert.KernelIdeal.dot_S512x1024_S512x1024_S1024x1024_0_0_1_1_n_n).lhsIdx j q 0).val = (q ⟨0, by decide⟩).val :=
  (Cert.KernelIdeal.dot_S512x1024_S512x1024_S1024x1024_0_0_1_1_n_n).lhsIdx_val_of_single rfl j q

/-- The contracted first coordinate of the right operand is the contraction position. -/
theorem rhs_0 (j : Cert.KernelIdeal.S1024x1024.Idx) (q : (Cert.KernelIdeal.dot_S512x1024_S512x1024_S1024x1024_0_0_1_1_n_n).contr.Idx) :
    ((Cert.KernelIdeal.dot_S512x1024_S512x1024_S1024x1024_0_0_1_1_n_n).rhsIdx j q 0).val = (q ⟨0, by decide⟩).val :=
  (Cert.KernelIdeal.dot_S512x1024_S512x1024_S1024x1024_0_0_1_1_n_n).rhsIdx_val_of_single rfl j q

/-- One tile's step at (pixel p, neuron n): the accumulator there plus the sum over the tile's 512 samples of the
    sample's pixel p times the second operand's entry at (sample, n). The product contracts the first axis of both
    operands, so its left index at contraction position a is (a, p) and its right index is (a, n). -/
theorem pay2_apply (v3 v5 : Vec Ideal Cert.KernelIdeal.S512x1024 .f32) (v8 : Vec Ideal Cert.KernelIdeal.S1024x1024 .f32)
    (p n : Fin 1024) :
    Cert.KernelIdeal.Gen.k1_pay2 (F := Ideal) v3 v5 v8 (ix2 p n) = v8 (ix2 p n) + ∑ a : Fin 512, v3 (ix2 a p) * v5 (ix2 a n) := by
  unfold Cert.KernelIdeal.Gen.k1_pay2
  rw [shapeCast_self, shapeCast_self, addf_apply]
  refine congrArg (v8 (ix2 p n) + ·) ?_
  refine (Ideal.matmul_constant_zero_apply Cert.KernelIdeal.dot_S512x1024_S512x1024_S1024x1024_0_0_1_1_n_n none _ _ (ix2 p n)).trans ?_
  rw [← Equiv.sum_comp (contrEquiv1 Cert.KernelIdeal.dot_S512x1024_S512x1024_S1024x1024_0_0_1_1_n_n 512 rfl rfl).symm]
  refine Finset.sum_congr rfl fun a _ => ?_
  have ha := contrEquiv1_symm_val Cert.KernelIdeal.dot_S512x1024_S512x1024_S1024x1024_0_0_1_1_n_n 512 rfl rfl a
  have el : (Cert.KernelIdeal.dot_S512x1024_S512x1024_S1024x1024_0_0_1_1_n_n).lhsIdx (ix2 p n)
      ((contrEquiv1 Cert.KernelIdeal.dot_S512x1024_S512x1024_S1024x1024_0_0_1_1_n_n 512 rfl rfl).symm a) = ix2 a p :=
    funext fun c => Fin.ext (by
      match c with
      | ⟨0, _⟩ => exact (lhs_0 _ _).trans ha
      | ⟨1, _⟩ => exact lhs_1 _ _)
  have er : (Cert.KernelIdeal.dot_S512x1024_S512x1024_S1024x1024_0_0_1_1_n_n).rhsIdx (ix2 p n)
      ((contrEquiv1 Cert.KernelIdeal.dot_S512x1024_S512x1024_S1024x1024_0_0_1_1_n_n 512 rfl rfl).symm a) = ix2 a n :=
    funext fun c => Fin.ext (by
      match c with
      | ⟨0, _⟩ => exact (rhs_0 _ _).trans ha
      | ⟨1, _⟩ => exact rhs_1 _ _)
  rw [el, er]
  rfl

/-- The last step: the accumulator times the broadcast word 0x38800000, that is, times 1/16384. -/
theorem pay3_apply (v17 : Vec Ideal Cert.KernelIdeal.S1024x1024 .f32) (i : Cert.KernelIdeal.S1024x1024.Idx) :
    Cert.KernelIdeal.Gen.k1_pay3 (F := Ideal) v17 i = v17 i * ((1 / 16384 : ℝ) : EReal) := by
  unfold Cert.KernelIdeal.Gen.k1_pay3
  rw [mulf_apply]
  exact congrArg (v17 i * ·) ofBits_inv16384

/-- The sum over 16384 consecutive positions, cut into 32 tiles of 512: position a of tile t is 512 * t + a. -/
theorem tiles_total {M : Type*} [AddCommMonoid M] (f : Fin 16384 → M) :
    ∑ b : Fin 16384, f b = ∑ t : Fin 32, ∑ a : Fin 512, f ⟨512 * t.val + a.val, by omega⟩ :=
  Cert.LibTileSum.sum_tiles 32 512 f

/-- the accumulator after the first k tiles, started from zero -/
def partialSum (f : Fin 16384 → EReal) : (k : ℕ) → k ≤ 32 → EReal
  | 0, _ => 0
  | k + 1, h => partialSum f k (Nat.le_of_succ_le h) + ∑ a : Fin 512, f ⟨512 * k + a.val, by omega⟩

/-- After k tiles the accumulator is the sum over the first k tiles of the tiles' sums: nothing for k = 0, and one more
    tile's sum, added last, for k + 1. -/
theorem partialSum_eq (f : Fin 16384 → EReal) : ∀ (k : ℕ) (h : k ≤ 32),
    partialSum f k h = ∑ t : Fin k, ∑ a : Fin 512, f ⟨512 * t.val + a.val, by have := t.isLt; omega⟩
  | 0, _ => by
    show (0 : EReal) = _
    exact (Finset.sum_empty).symm
  | k + 1, h => by
    show partialSum f k (Nat.le_of_succ_le h) + _ = _
    rw [partialSum_eq f k (Nat.le_of_succ_le h)]
    exact (Fin.sum_univ_castSucc (fun t : Fin (k + 1) => ∑ a : Fin 512, f ⟨512 * t.val + a.val, by have := t.isLt; omega⟩)).symm

/-- After all 32 tiles the accumulator is the sum over all 16384 positions. -/
theorem partialSum_full (f : Fin 16384 → EReal) : partialSum f 32 le_rfl = ∑ b : Fin 16384, f b := by
  rw [partialSum_eq f 32 le_rfl, tiles_total f]

end Cert.PayAcc

end
-- ==== Proof.KI.R1Value.lean ====
/-
  From the second region's blocks to its output array, at the ideal instance. The scratch after point `k` holds, at
  entry (p, n), the sum over the samples of the tiles `0 … k` of (sample's pixel p) × (sample's gradient term at n):
  a partial sum of one sum over all 16384 samples, tile by tile. The output window's one block is the whole
  [1024, 1024] array; it is written back at the last point only, holding the full sum times 1/16384.
-/
import proofs.«105448_j18073222382222_1_alg».proof.Proof.KI.R1
import proofs.«105448_j18073222382222_1_alg».proof.Proof.PayAcc
import Idealize.ShloMosaic.Lib.Pipeline.Value
import Idealize.ShloMosaic.Lib.ValueIdx

set_option maxRecDepth 16384

noncomputable section

open scoped BigOperators

namespace Cert.KernelIdeal.R1V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps, decided over the grid: the two input windows' block index is (the point, 0), the
    output window's is (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

theorem lt32 (t : Fin cfg1.N) : t.val < 32 := lt_of_lt_of_eq t.isLt (show cfg1.N = 32 from N_1)

/-- The samples array and the gradient-terms array as the region finds them. -/
abbrev X (c : Dev nD) : S16384x1024.Idx → EReal := V c main_arg0
abbrev G (c : Dev nD) : S16384x1024.Idx → EReal := V c main_v2_2

/-- The two input tiles at point `t`, as the region finds them. -/
abbrev xb (c : Dev nD) (t : Fin cfg1.N) : S512x1024.Idx → EReal := R1.iblk1 V c 0 t
abbrev gb (c : Dev nD) (t : Fin cfg1.N) : S512x1024.Idx → EReal := R1.iblk1 V c 1 t

/-- One sample's contribution to entry (p, n). -/
def term (c : Dev nD) (p n : Fin 1024) (b : Fin 16384) : EReal := X V c (ix2 b p) * G V c (ix2 b n)

/-- Row `a` of the tile of samples at point `t` is sample `512 t + a`. -/
theorem blk_x (c : Dev nD) (t : Fin cfg1.N) (a : Fin 512) (p : Fin 1024) :
    xb V c t (ix2 a p) = X V c (ix2 ⟨512 * t.val + a.val, by have := lt32 t; omega⟩ p) := by
  obtain ⟨e0, e1, -, -, -, -⟩ := idx_facts t
  show X V c (((cfg1.win 0).blk t).view.emb (ix2 a p)) = _
  refine congrArg (X V c) ?_
  funext d; apply Fin.ext
  match d with
  | ⟨0, _⟩ => show win1_0.index t (0 : Fin 2) * 512 + 1 * a.val = 512 * t.val + a.val; omega
  | ⟨1, _⟩ => show win1_0.index t (1 : Fin 2) * 1024 + 1 * p.val = p.val; omega

theorem blk_g (c : Dev nD) (t : Fin cfg1.N) (a : Fin 512) (n : Fin 1024) :
    gb V c t (ix2 a n) = G V c (ix2 ⟨512 * t.val + a.val, by have := lt32 t; omega⟩ n) := by
  obtain ⟨-, -, e0, e1, -, -⟩ := idx_facts t
  show G V c (((cfg1.win 1).blk t).view.emb (ix2 a n)) = _
  refine congrArg (G V c) ?_
  funext d; apply Fin.ext
  match d with
  | ⟨0, _⟩ => show win1_1.index t (0 : Fin 2) * 512 + 1 * a.val = 512 * t.val + a.val; omega
  | ⟨1, _⟩ => show win1_1.index t (1 : Fin 2) * 1024 + 1 * n.val = n.val; omega

/-- One tile's contribution, in the samples' own numbering. -/
theorem tile_sum (c : Dev nD) (t : Fin cfg1.N) (p n : Fin 1024) :
    (∑ a : Fin 512, xb V c t (ix2 a p) * gb V c t (ix2 a n))
      = ∑ a : Fin 512, term V c p n ⟨512 * t.val + a.val, by have := lt32 t; omega⟩ :=
  Finset.sum_congr rfl fun a _ => by rw [blk_x, blk_g]; rfl

/-- THE SCRATCH AFTER POINT `k`, at an entry: the partial sum over the tiles `0 … k`. -/
theorem acc_apply (c : Dev nD) (p n : Fin 1024) : ∀ (k : ℕ) (hk : k < cfg1.N),
    (R1.acc V c k hk : S1024x1024.Idx → EReal) (ix2 p n)
      = Cert.PayAcc.partialSum (term V c p n) (k + 1) (by have := lt_of_lt_of_eq hk (show cfg1.N = 32 from N_1); omega)
  | 0, hk => by
    refine (Cert.PayAcc.pay2_apply (xb V c ⟨0, hk⟩) (gb V c ⟨0, hk⟩) _ p n).trans ?_
    rw [Cert.PayAcc.pay1_apply, tile_sum V c ⟨0, hk⟩ p n]
    rfl
  | k + 1, hk => by
    refine (Cert.PayAcc.pay2_apply (xb V c ⟨k + 1, hk⟩) (gb V c ⟨k + 1, hk⟩) _ p n).trans ?_
    rw [acc_apply c p n k (Nat.lt_of_succ_lt hk), tile_sum V c ⟨k + 1, hk⟩ p n]
    rfl

/-- The whole array the region leaves in its output: the sum over all samples, times 1/16384. -/
def outArr (c : Dev nD) : S1024x1024.Idx → EReal := fun i =>
  (∑ b : Fin 16384, term V c (i 0) (i 1) b) * ((1 / 16384 : ℝ) : EReal)

/-- What the output's staging buffer holds after the last point. -/
theorem after_last (c : Dev nD) (t : Fin cfg1.N) (ht : t.val = 31) :
    ((R1.dat1 V c).after 2 t : S1024x1024.Idx → EReal) = outArr V c := by
  rw [R1.after1_2]
  funext i
  obtain ⟨p, n, rfl⟩ : ∃ (p n : Fin 1024), i = ix2 p n := ⟨i 0, i 1, eq_ix2 i⟩
  refine (Cert.PayAcc.pay3_apply _ (ix2 p n)).trans ?_
  obtain ⟨tv, htv⟩ := t
  obtain rfl : tv = 31 := ht
  rw [acc_apply V c p n 31 htv]
  show Cert.PayAcc.partialSum (term V c p n) 32 _ * _ = _
  rw [Cert.PayAcc.partialSum_full]
  rfl

/-- An index of the output array is in the one block of the window, at any point. -/
theorem mem_blk (t : Fin cfg1.N) (i : S1024x1024.Idx) : i ∈ ((cfg1.win 2).blk t).view.set := by
  obtain ⟨-, -, -, -, e0, e1⟩ := idx_facts t
  show i ∈ ((View.whole main_v3).slice (win1_2.rect t)).set
  rw [View.set_slice_whole, Rect.mem_set_unit]
  intro a
  have h0 : (i 0).val < 1024 := (i 0).isLt
  have h1 : (i 1).val < 1024 := (i 1).isLt
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- What the last point writes back is the whole of `outArr`, read through the window's one block. -/
theorem flushed_eq (c : Dev nD) (t : Fin cfg1.N) (hf : (cfg1.win 2).flush t = true) :
    (R1.dat1 V c).flushed 2 t = ((cfg1.win 2).blk t).view.read (Elt Ideal) (outArr V c) := by
  have ht : t.val = 31 := by have := (flush1_2 t).mp hf; have := lt32 t; omega
  obtain ⟨-, -, -, -, e0, e1⟩ := idx_facts t
  show (cfg1.win 2).cut (grid1.coords t) ((R1.dat1 V c).after 2 t) = _
  rw [after_last V c t ht]
  funext j
  show outArr V c j = outArr V c (((cfg1.win 2).blk t).view.emb j)
  refine congrArg (outArr V c) ?_
  funext d; apply Fin.ext
  match d with
  | ⟨0, _⟩ => show (j 0).val = win1_2.index t (0 : Fin 2) * 1024 + 1 * (j 0).val; omega
  | ⟨1, _⟩ => show (j 1).val = win1_2.index t (1 : Fin 2) * 1024 + 1 * (j 1).val; omega

/-- THE OUTPUT ARRAY after the region. -/
theorem final_out (c : Dev nD) : (R1.dat1 V c).arrAt 2 cfg1.N = outArr V c :=
  (R1.dat1 V c).arrAt_eq_of_cover 2 (outArr V c) (fun t hf => flushed_eq V c t hf)
    (fun i => ⟨⟨31, by rw [show cfg1.N = 32 from N_1]; omega⟩, (flush1_2 _).mpr rfl, mem_blk _ i⟩)

end Cert.KernelIdeal.R1V

end
-- ==== Proof.KI.Bridge.lean ====
/-
  The idealized kernel program's three results as functions of its three arguments, at the ideal instance: the run's
  arrays (what the two regions' write-backs leave) are the specification's latent variables, reconstruction and
  averaged gradient. The host conversions before the first region are the identity on extended reals; the first
  region's outputs are the per-sample functions row by row; the second region's output is the sum over all samples
  of pixel × gradient term, times 1/16384, where the gradient terms are the first region's third output.
-/
import proofs.«105448_j18073222382222_1_alg».proof.Proof.KI.Run
import proofs.«105448_j18073222382222_1_alg».proof.Proof.KI.R0Value
import proofs.«105448_j18073222382222_1_alg».proof.Proof.KI.R1Value
import proofs.«105448_j18073222382222_1_alg».proof.Proof.Alg
import Idealize.ShloMosaic.Lib.StableHlo.Run

set_option maxRecDepth 16384

noncomputable section

open scoped BigOperators

namespace Cert.KernelIdeal.Bridge

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The three arguments on core `c`, as launched. -/
abbrev ax (c : Dev nD) : S16384x1024.Idx → EReal := m ((c.tc : Thread nD τ).loc main_arg0)
abbrev aw (c : Dev nD) : S1024x1024.Idx → EReal := m ((c.tc : Thread nD τ).loc main_arg1)
abbrev ar (c : Dev nD) : S1024x64.Idx → EReal := m ((c.tc : Thread nD τ).loc main_arg2)

/-- The converted analysis matrix the first region reads is the analysis matrix: a change of float format is the
    identity on extended reals. -/
theorem entry_w (c : Dev nD) : (Run.V1 m ρ c main_v0 : S1024x1024.Idx → EReal) = aw m c := by
  show StableHlo.after hostOps0 (fun b => m (c, b)) (Proc.devRef .tc main_v0) = _
  after_results
  rfl

/-- Likewise the converted group indicator. -/
theorem entry_r (c : Dev nD) : (Run.V1 m ρ c main_v1 : S1024x64.Idx → EReal) = ar m c := by
  show StableHlo.after hostOps0 (fun b => m (c, b)) (Proc.devRef .tc main_v1) = _
  after_results
  rfl

theorem entry_x (c : Dev nD) : (Run.V1 m ρ c main_arg0 : S16384x1024.Idx → EReal) = ax m c := Run.V1_main_arg0 m ρ c

/-- The first result: the latent variables. -/
theorem out_lat (c : Dev nD) :
    ((R0.dat0 (Run.V1 m ρ) c).arrAt 3 cfg0.N : S16384x1024.Idx → EReal) = Cert.Alg.latArr (B := 16384) (ax m c) (aw m c) := by
  rw [R0V.final_lat, entry_x, entry_w]

/-- The second result: the reconstruction. -/
theorem out_recon (c : Dev nD) :
    ((R0.dat0 (Run.V1 m ρ) c).arrAt 4 cfg0.N : S16384x1024.Idx → EReal) = Cert.Alg.reconArr (B := 16384) (ax m c) (aw m c) := by
  rw [R0V.final_recon, entry_x, entry_w]

/-- The first region's third output, which the second region reads: the gradient terms. -/
theorem out_gterm (c : Dev nD) :
    ((R0.dat0 (Run.V1 m ρ) c).arrAt 5 cfg0.N : S16384x1024.Idx → EReal) = Cert.Alg.gtermArr (B := 16384) (ax m c) (aw m c) (ar m c) := by
  rw [R0V.final_gterm, entry_x, entry_w, entry_r]

/-- The third result: the averaged gradient. -/
theorem out_avg (c : Dev nD) :
    ((R1.dat1 (Run.V2 m ρ) c).arrAt 2 cfg1.N : S1024x1024.Idx → EReal) = Cert.Alg.avgArr (ax m c) (aw m c) (ar m c) := by
  rw [R1V.final_out]
  have hX : R1V.X (Run.V2 m ρ) c = ax m c := Run.V2_main_arg0 m ρ c
  have hG : R1V.G (Run.V2 m ρ) c = Cert.Alg.gtermArr (B := 16384) (ax m c) (aw m c) (ar m c) :=
    (Run.V2_main_v2_2 m ρ c).trans (out_gterm m ρ c)
  funext i
  unfold R1V.outArr Cert.Alg.avgArr Cert.Alg.avg Cert.Alg.gsum
  refine congrArg (· * ((1 / 16384 : ℝ) : EReal)) (Finset.sum_congr rfl fun b _ => ?_)
  unfold R1V.term
  rw [hX, hG]
  rfl

end Cert.KernelIdeal.Bridge

end
-- ==== Proof.RefAlg.lean ====
/-
  The reference program, read one operation at a time, computes the specification's functions: its first
  product is the latent variables, its second the reconstruction, and its last quotient the averaged gradient.
  Each stage is identified with the specification's function of the same name at an index split into its two
  coordinates; the transposes only swap the coordinates, and the final division by the real 16384 is the product
  with 1/16384 on every extended real.
-/
import proofs.«105448_j18073222382222_1_alg».proof.Proof.Alg
import proofs.«105448_j18073222382222_1_alg».proof.Proof.Gen.ReferenceIdeal.Read

noncomputable section

open scoped BigOperators

namespace Cert.RefAlg

open Idealize.ShloMosaic Idealize.ShloMosaic.ValueIdx Cert.ReferenceIdeal Cert.ReferenceIdeal.Read Cert.Alg

/-- The three argument arrays' types. -/
abbrev TX : Type := (⟨S16384x1024, .f32⟩ : BufTy).Contents (Elt Ideal)
abbrev TW : Type := (⟨S1024x1024, .f32⟩ : BufTy).Contents (Elt Ideal)
abbrev TR : Type := (⟨S1024x64, .f32⟩ : BufTy).Contents (Elt Ideal)

/-! ## The composed index functions at an index given by its coordinates

Each is a two-entry table on the axis; on an index built from two coordinates it is again such an index, with the
coordinates the operation reads (a transpose swaps them, a product reads row `b` of the left operand at the
contracted position and the contracted position of the right operand at column `n`). -/

theorem idx0 (a b : Fin 1024) : idx_main_v0 (ix2 a b) = ix2 b a :=
  funext fun d => Fin.ext (by match d with | ⟨0, _⟩ => rfl | ⟨1, _⟩ => rfl)
theorem lidx1 (b : Fin 16384) (n k : Fin 1024) : lidx_main_v1 (ix2 b n) k = ix2 b k :=
  funext fun d => Fin.ext (by match d with | ⟨0, _⟩ => rfl | ⟨1, _⟩ => rfl)
theorem ridx1 (b : Fin 16384) (n k : Fin 1024) : ridx_main_v1 (ix2 b n) k = ix2 k n :=
  funext fun d => Fin.ext (by match d with | ⟨0, _⟩ => rfl | ⟨1, _⟩ => rfl)
theorem lidx2 (b : Fin 16384) (p k : Fin 1024) : lidx_main_v2 (ix2 b p) k = ix2 b k :=
  funext fun d => Fin.ext (by match d with | ⟨0, _⟩ => rfl | ⟨1, _⟩ => rfl)
theorem ridx2 (b : Fin 16384) (p k : Fin 1024) : ridx_main_v2 (ix2 b p) k = ix2 k p :=
  funext fun d => Fin.ext (by match d with | ⟨0, _⟩ => rfl | ⟨1, _⟩ => rfl)
theorem lidx4 (b : Fin 16384) (g : Fin 64) (k : Fin 1024) : lidx_main_v4 (ix2 b g) k = ix2 b k :=
  funext fun d => Fin.ext (by match d with | ⟨0, _⟩ => rfl | ⟨1, _⟩ => rfl)
theorem ridx4 (b : Fin 16384) (g : Fin 64) (k : Fin 1024) : ridx_main_v4 (ix2 b g) k = ix2 k g :=
  funext fun d => Fin.ext (by match d with | ⟨0, _⟩ => rfl | ⟨1, _⟩ => rfl)
theorem idx8 (g : Fin 64) (n : Fin 1024) : idx_main_v8 (ix2 g n) = ix2 n g :=
  funext fun d => Fin.ext (by match d with | ⟨0, _⟩ => rfl | ⟨1, _⟩ => rfl)
theorem lidx9 (b : Fin 16384) (n : Fin 1024) (k : Fin 64) : lidx_main_v9 (ix2 b n) k = ix2 b k :=
  funext fun d => Fin.ext (by match d with | ⟨0, _⟩ => rfl | ⟨1, _⟩ => rfl)
theorem ridx9 (b : Fin 16384) (n : Fin 1024) (k : Fin 64) : ridx_main_v9 (ix2 b n) k = ix2 k n :=
  funext fun d => Fin.ext (by match d with | ⟨0, _⟩ => rfl | ⟨1, _⟩ => rfl)
theorem idx10 (p : Fin 1024) (b : Fin 16384) : idx_main_v10 (ix2 p b) = ix2 b p :=
  funext fun d => Fin.ext (by match d with | ⟨0, _⟩ => rfl | ⟨1, _⟩ => rfl)
theorem lidx12 (p n : Fin 1024) (k : Fin 16384) : lidx_main_v12 (ix2 p n) k = ix2 p k :=
  funext fun d => Fin.ext (by match d with | ⟨0, _⟩ => rfl | ⟨1, _⟩ => rfl)
theorem ridx12 (p n : Fin 1024) (k : Fin 16384) : ridx_main_v12 (ix2 p n) k = ix2 k n :=
  funext fun d => Fin.ext (by match d with | ⟨0, _⟩ => rfl | ⟨1, _⟩ => rfl)

/-! ## The divisor -/

/-- The f32 word 0x46800000 (sign 0, biased exponent 141, zero fraction) denotes the real 2^14 = 16384. -/
theorem ofBits_16384 : Ideal.ofBits .f32 0x46800000#32 = ((16384 : ℝ) : EReal) := by
  simp [Ideal.ofBits, Ideal.ieee, -EReal.coe_mul]; norm_num

/-! ## The stages, one operation at a time -/

/-- The first product, `x @ wᵀ`, is the latent variables: the transpose reads `w` at the swapped coordinates. -/
theorem v1_ix (x0 : TX) (x1 : TW) (b : Fin 16384) (n : Fin 1024) :
    val_main_v1 (F := Ideal) x0 x1 (ix2 b n) = lat x0 x1 b n := by
  rw [val_main_v1_apply]
  unfold lat
  refine Finset.sum_congr rfl fun p _ => ?_
  rw [val_main_v0_apply, lidx1, ridx1, idx0]

/-- The second product, `s @ w`, is the reconstruction. -/
theorem v2_ix (x0 : TX) (x1 : TW) (b : Fin 16384) (p : Fin 1024) :
    val_main_v2 (F := Ideal) x0 x1 (ix2 b p) = recon x0 x1 b p := by
  rw [val_main_v2_apply]
  unfold recon
  refine Finset.sum_congr rfl fun n _ => ?_
  rw [lidx2, ridx2, v1_ix]

/-- The elementwise square of the latent variables. -/
theorem v3_ix (x0 : TX) (x1 : TW) (b : Fin 16384) (n : Fin 1024) :
    val_main_v3 (F := Ideal) x0 x1 (ix2 b n) = lat x0 x1 b n * lat x0 x1 b n := by
  rw [val_main_v3_apply, v1_ix, Ideal.mulf_def]

/-- The squares through the indicator: the group energies. -/
theorem v4_ix (x0 : TX) (x1 : TW) (x2 : TR) (b : Fin 16384) (g : Fin 64) :
    val_main_v4 (F := Ideal) x0 x1 x2 (ix2 b g) = energy x0 x1 x2 b g := by
  rw [val_main_v4_apply]
  unfold energy
  refine Finset.sum_congr rfl fun n _ => ?_
  rw [lidx4, ridx4, v3_ix]

/-- Minus one half (the same f32 word, left unevaluated) times the inverse square root of the energy. -/
theorem v7_ix (x0 : TX) (x1 : TW) (x2 : TR) (b : Fin 16384) (g : Fin 64) :
    val_main_v7 (F := Ideal) x0 x1 x2 (ix2 b g) = nonlin x0 x1 x2 b g := by
  rw [val_main_v7_apply, val_main_v6_apply, val_main_cst_apply, val_main_v5_apply, v4_ix,
    Ideal.mulf_def, Ideal.ofBits_def, Ideal.hostUnary_rsqrt_def]
  rfl

/-- The nonlinearity back through the transposed indicator. -/
theorem v9_ix (x0 : TX) (x1 : TW) (x2 : TR) (b : Fin 16384) (n : Fin 1024) :
    val_main_v9 (F := Ideal) x0 x1 x2 (ix2 b n) = spread x0 x1 x2 b n := by
  rw [val_main_v9_apply]
  unfold spread
  refine Finset.sum_congr rfl fun g _ => ?_
  rw [lidx9, ridx9, v7_ix, val_main_v8_apply, idx8]

/-- The gradient term: the latent variable times the spread nonlinearity. -/
theorem v11_ix (x0 : TX) (x1 : TW) (x2 : TR) (b : Fin 16384) (n : Fin 1024) :
    val_main_v11 (F := Ideal) x0 x1 x2 (ix2 b n) = gterm x0 x1 x2 b n := by
  rw [val_main_v11_apply, v1_ix, v9_ix, Ideal.mulf_def]
  rfl

/-- The last product, `xᵀ @ (s * nl_b)`, is the sum over the batch. -/
theorem v12_ix (x0 : TX) (x1 : TW) (x2 : TR) (p n : Fin 1024) :
    val_main_v12 (F := Ideal) x0 x1 x2 (ix2 p n) = gsum x0 x1 x2 p n := by
  rw [val_main_v12_apply]
  unfold gsum
  refine Finset.sum_congr rfl fun b _ => ?_
  rw [lidx12, ridx12, val_main_v10_apply, idx10, v11_ix]

/-- The quotient by 16384.0 is the product with 1/16384 on every extended real. -/
theorem v14_ix (x0 : TX) (x1 : TW) (x2 : TR) (p n : Fin 1024) :
    val_main_v14 (F := Ideal) x0 x1 x2 (ix2 p n) = avg x0 x1 x2 p n := by
  rw [val_main_v14_apply, val_main_v13_apply, val_main_cst_0_apply, v12_ix, Ideal.hostDivf_def,
    Ideal.ofBits_def, ofBits_16384, Ideal.div_coe (by norm_num : (16384 : ℝ) ≠ 0)]
  rfl

/-! ## The three results -/

theorem ref_lat (x0 : (⟨Cert.ReferenceIdeal.S16384x1024, .f32⟩ : BufTy).Contents (Elt Ideal)) (x1 : (⟨Cert.ReferenceIdeal.S1024x1024, .f32⟩ : BufTy).Contents (Elt Ideal)) :
    Cert.ReferenceIdeal.Read.val_main_v1 (F := Ideal) x0 x1 = Cert.Alg.latArr x0 x1 := by
  funext i
  obtain ⟨b, n, rfl⟩ : ∃ b n, i = ix2 b n := ⟨i 0, i 1, eq_ix2 i⟩
  exact v1_ix x0 x1 b n

theorem ref_recon (x0 : (⟨Cert.ReferenceIdeal.S16384x1024, .f32⟩ : BufTy).Contents (Elt Ideal)) (x1 : (⟨Cert.ReferenceIdeal.S1024x1024, .f32⟩ : BufTy).Contents (Elt Ideal)) :
    Cert.ReferenceIdeal.Read.val_main_v2 (F := Ideal) x0 x1 = Cert.Alg.reconArr x0 x1 := by
  funext i
  obtain ⟨b, p, rfl⟩ : ∃ b p, i = ix2 b p := ⟨i 0, i 1, eq_ix2 i⟩
  exact v2_ix x0 x1 b p

theorem ref_avg (x0 : (⟨Cert.ReferenceIdeal.S16384x1024, .f32⟩ : BufTy).Contents (Elt Ideal)) (x1 : (⟨Cert.ReferenceIdeal.S1024x1024, .f32⟩ : BufTy).Contents (Elt Ideal))
    (x2 : (⟨Cert.ReferenceIdeal.S1024x64, .f32⟩ : BufTy).Contents (Elt Ideal)) :
    Cert.ReferenceIdeal.Read.val_main_v14 (F := Ideal) x0 x1 x2 = Cert.Alg.avgArr x0 x1 x2 := by
  funext i
  obtain ⟨p, n, rfl⟩ : ∃ p n, i = ix2 p n := ⟨i 0, i 1, eq_ix2 i⟩
  exact v14_ix x0 x1 x2 p n

end Cert.RefAlg

end
-- ==== Proof.lean ====
/-
  The certificate's five claims for the subspace-ICA gradient kernel against its reference.

  Both programs compute, from samples x : [16384, 1024], an analysis matrix w : [1024, 1024] and a group indicator
  r : [1024, 64]: the latent variables s = x wᵀ, the reconstruction s w, and the averaged gradient
  (1/16384) · xᵀ (s ⊙ spread), where spread sends −½ · (group energy of s²)^(−1/2) back to the neurons through r.
  The kernel program does the per-sample part tile by tile (32 tiles of 512 samples) in a first region, and
  accumulates xᵀ (gradient terms) over the tiles in a scratch in a second region, scaling by the word 2^(−14) at the
  last tile; the reference does each as one whole-array operation and divides by 16384.

  At the ideal instance a change of float format is the identity, a matrix product into a zero accumulator is the plain
  sum of products, and the extended reals' addition is commutative and associative, so the sum over 16384 samples is
  the sum over the tiles of the tiles' sums with no finiteness needed; multiplying by 1/16384 and dividing by 16384
  agree on every extended real. The precondition is therefore never opened.

  The frames of the two kernel programs are the several-regions launch over the two regions' body obligations
  (written once for any float instance, instantiated at the word-level and at the ideal one); the reference's frame is
  its generated run with the results dropped; no idealization rewrite was applied, so `preserves` is trivial.
-/
import proofs.«105448_j18073222382222_1_alg».proof.Defs
import proofs.«105448_j18073222382222_1_alg».proof.Proof.Gen.Kernel
import proofs.«105448_j18073222382222_1_alg».proof.Proof.Gen.Kernel.Skeleton
import proofs.«105448_j18073222382222_1_alg».proof.Proof.Gen.Kernel.Launch
import proofs.«105448_j18073222382222_1_alg».proof.Proof.Gen.Kernel.Regions
import proofs.«105448_j18073222382222_1_alg».proof.Proof.Gen.Kernel.Points
import proofs.«105448_j18073222382222_1_alg».proof.Proof.Gen.KernelIdeal
import proofs.«105448_j18073222382222_1_alg».proof.Proof.Gen.KernelIdeal.Skeleton
import proofs.«105448_j18073222382222_1_alg».proof.Proof.Gen.KernelIdeal.Launch
import proofs.«105448_j18073222382222_1_alg».proof.Proof.Gen.KernelIdeal.Regions
import proofs.«105448_j18073222382222_1_alg».proof.Proof.Gen.KernelIdeal.Points
import proofs.«105448_j18073222382222_1_alg».proof.Proof.Gen.ReferenceIdeal
import proofs.«105448_j18073222382222_1_alg».proof.Proof.Gen.ReferenceIdeal.Run
import proofs.«105448_j18073222382222_1_alg».proof.Proof.Gen.ReferenceIdeal.Read
import proofs.«105448_j18073222382222_1_alg».proof.Proof.Gen.Pre_finite_inputs
import proofs.«105448_j18073222382222_1_alg».proof.Proof.K.Run
import proofs.«105448_j18073222382222_1_alg».proof.Proof.KI.Run
import proofs.«105448_j18073222382222_1_alg».proof.Proof.KI.Bridge
import proofs.«105448_j18073222382222_1_alg».proof.Proof.RefAlg
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Run.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From memories agreeing on the arguments both idealized programs end with the specification's three arrays of
    the kernel program's arguments: the kernel side by the regions' write-backs read as the specification
    (`Bridge`), the reference side by its stages read as the specification (`RefAlg`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Alg.latArr (B := 16384) (Cert.KernelIdeal.Bridge.ax m c) (Cert.KernelIdeal.Bridge.aw m c),
    fun c => Cert.Alg.reconArr (B := 16384) (Cert.KernelIdeal.Bridge.ax m c) (Cert.KernelIdeal.Bridge.aw m c),
    fun c => Cert.Alg.avgArr (Cert.KernelIdeal.Bridge.ax m c) (Cert.KernelIdeal.Bridge.aw m c) (Cert.KernelIdeal.Bridge.ar m c), ?_, ?_⟩
  · exact (θ_run Cert.KernelIdeal.defs _ _).mono (fun r h c =>
      ⟨(h c).1.trans (Cert.KernelIdeal.Bridge.out_lat m ρ c),
       (h c).2.1.trans (Cert.KernelIdeal.Bridge.out_recon m ρ c),
       (h c).2.2.1.trans (Cert.KernelIdeal.Bridge.out_avg m ρ c),
       (h c).2.2.2.1, (h c).2.2.2.2.1, (h c).2.2.2.2.2⟩)
      (Cert.KernelIdeal.Run.run_read (F := Ideal) m ρ)
  · refine (θ_run Cert.ReferenceIdeal.defs _ _).mono (fun r h c => ⟨?_, ?_, ?_, (h c).2.2.2.1, (h c).2.2.2.2.1, (h c).2.2.2.2.2⟩)
      (Cert.ReferenceIdeal.Value.run (F := Ideal) m' ρ')
    · rw [(h c).1, Cert.ReferenceIdeal.Read.val_main_v1_eq, Cert.RefAlg.ref_lat, (hagree c).1, (hagree c).2.1]
    · rw [(h c).2.1, Cert.ReferenceIdeal.Read.val_main_v2_eq, Cert.RefAlg.ref_recon, (hagree c).1, (hagree c).2.1]
    · rw [(h c).2.2.1, Cert.ReferenceIdeal.Read.val_main_v14_eq, Cert.RefAlg.ref_avg, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
